-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1600000 : Shape := ⟨2, ![2, 1600000]⟩
abbrev S1x128 : Shape := ⟨2, ![1, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  main_v123

def fn_part6 {F : FTy → Type} [FloatOps F] (main_arg22 : FVec F S128 .f32) (main_arg23 : FVec F S128 .f32) (main_arg24 : FVec F S128 .f32) (main_arg25 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg22
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg23
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg24
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg25
  fn_part7 (F := F) main_v118 main_v119

def fn_part5 {F : FTy → Type} [FloatOps F] (main_arg19 : FVec F S128 .f32) (main_arg20 : FVec F S128 .f32) (main_arg21 : FVec F S128 .f32) (main_arg22 : FVec F S128 .f32) (main_arg23 : FVec F S128 .f32) (main_arg24 : FVec F S128 .f32) (main_arg25 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg22 main_arg23 main_arg24 main_arg25 main_v98 main_v101 main_c_39

def fn_part4 {F : FTy → Type} [FloatOps F] (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_arg25 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_arg21 main_arg22 main_arg23 main_arg24 main_arg25 main_v83 main_v84 main_cst_32

def fn_part3 {F : FTy → Type} [FloatOps F] (main_arg12 : FVec F S128x1 .f32) (main_arg13 : FVec F S1 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_arg25 : FVec F S128 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S128x1 .f32 := Host.absf main_arg12
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_arg22 main_arg23 main_arg24 main_arg25 main_v63 main_v67

def fn_part2 {F : FTy → Type} [FloatOps F] (main_arg8 : FVec F S128x128 .f32) (main_arg9 : FVec F S128x128 .f32) (main_arg10 : FVec F S128 .f32) (main_arg11 : FVec F S128x1 .f32) (main_arg12 : FVec F S128x1 .f32) (main_arg13 : FVec F S1 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_arg25 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg11
  let main_cst_18 : FVec F S_ .f32 := constant S_ .f32 0x7F800000#32
  let main_v50 : FVec F S128x1 .f32 := broadcastInDim S128x1 ![] bcast_S_S128x1 main_cst_18
  fn_part3 (F := F) main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x1 .f32) (main_arg12 : FVec F S128x1 .f32) (main_arg13 : FVec F S1 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_arg25 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S100000x1 .f32) (main_arg1 : IVec S2x1600000 32) (main_arg2 : FVec F S1x128 .f32) (main_arg3 : FVec F S1x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x1 .f32) (main_arg12 : FVec F S128x1 .f32) (main_arg13 : FVec F S1 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_arg25 : FVec F S128 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S100000x1 : Shape := ⟨2, ![100000, 1]⟩
abbrev S2x1600000 : Shape := ⟨2, ![2, 1600000]⟩
abbrev S1x128 : Shape := ⟨2, ![1, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x128 : Shape := ⟨2, ![100000, 128]⟩
abbrev S5000x1 : Shape := ⟨2, ![5000, 1]⟩
abbrev S5000x128 : Shape := ⟨2, ![5000, 128]⟩
abbrev S1600000x128 : Shape := ⟨2, ![1600000, 128]⟩
abbrev S1x1 : Shape := ⟨2, ![1, 1]⟩

abbrev nBuf : Space → Nat
  | .hbm => 102
  | .vmem => 48
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S1x128, .f32⟩
  | .hbm, ⟨3, _⟩ => ⟨S1x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S128x1, .f32⟩
  | .hbm, ⟨13, _⟩ => ⟨S1, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S1x1600000, .i32⟩
  | .hbm, ⟨27, _⟩ => ⟨S1600000, .i32⟩
  | .hbm, ⟨28, _⟩ => ⟨S1x1600000, .i32⟩
  | .hbm, ⟨29, _⟩ => ⟨S1600000, .i32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x1, .f32⟩
  | .hbm, ⟨39, _⟩ => ⟨S_, .f32⟩
  | .hbm, ⟨40, _⟩ => ⟨S100000x1, .f32⟩
  | .hbm, ⟨41, _⟩ => ⟨S1600000x1, .i32⟩
  | .hbm, ⟨42, _⟩ => ⟨S100000x1, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S100000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S100000x128, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x128, .f32⟩
  | .hbm, ⟨96, _⟩ => ⟨S_, .f32⟩
  | .hbm, ⟨97, _⟩ => ⟨S100000x128, .f32⟩
  | .hbm, ⟨98, _⟩ => ⟨S1600000x1, .i32⟩
  | .hbm, ⟨99, _⟩ => ⟨S100000x128, .f32⟩
  | .hbm, ⟨100, _⟩ => ⟨S1x1, .f32⟩
  | .hbm, ⟨101, _⟩ => ⟨S100000x1, .f32⟩
  | .local _ .vmem, ⟨0, _⟩ => ⟨S5000x1, .f32⟩
  | .local _ .vmem, ⟨1, _⟩ => ⟨S5000x1, .f32⟩
  | .local _ .vmem, ⟨2, _⟩ => ⟨S5000x1, .f32⟩
  | .local _ .vmem, ⟨3, _⟩ => ⟨S5000x1, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S128x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S128x1, .f32⟩
  | .local _ .vmem, ⟨44, _⟩ => ⟨S128x1, .f32⟩
  | .local _ .vmem, ⟨45, _⟩ => ⟨S1x1, .f32⟩
  | .local _ .vmem, ⟨46, _⟩ => ⟨S5000x1, .f32⟩
  | .local _ .vmem, ⟨47, _⟩ => ⟨S5000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_1 : Ref sig .tc := ⟨.hbm, 49, rfl⟩
abbrev main_v20 : Ref sig .tc := ⟨.hbm, 50, rfl⟩
abbrev main_v21 : Ref sig .tc := ⟨.hbm, 51, rfl⟩
abbrev main_c_2 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_3 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_4 : Ref sig .tc := ⟨.hbm, 68, rfl⟩
abbrev main_v36 : Ref sig .tc := ⟨.hbm, 69, rfl⟩
abbrev main_v37 : Ref sig .tc := ⟨.hbm, 70, rfl⟩
abbrev main_c_5 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_6 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_7 : Ref sig .tc := ⟨.hbm, 87, rfl⟩
abbrev main_v52 : Ref sig .tc := ⟨.hbm, 88, rfl⟩
abbrev main_v53 : Ref sig .tc := ⟨.hbm, 89, rfl⟩
abbrev main_c_8 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_9 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg9_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg5_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem9_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem3_0 : DmaSem sig := 44
abbrev cc3_sem4_0 : DmaSem sig := 45
abbrev cc3_sem5_0 : DmaSem sig := 46
abbrev cc3_sem5_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x1 : S_.BroadcastsInDim S100000x1 (![] : Fin 0 → Fin S100000x1.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S5000x1_S1x128_S5000x128_1_0_0_1_n_n_wf : DotDims.WF S5000x1 S1x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S100000x128.size a
  hwx0_9 : ∀ i : grid0.Coords, EltTy.bits .f32 = 32 ∨ (Rect.block (s := S100000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S100000x128.size a
  hwx1_9 : ∀ i : grid1.Coords, EltTy.bits .f32 = 32 ∨ (Rect.block (s := S100000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S100000x128.size a
  hwx2_9 : ∀ i : grid2.Coords, EltTy.bits .f32 = 32 ∨ (Rect.block (s := S100000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x1.size a ≤ S128x1.size a
  hwx3_2 : ∀ i : grid3.Coords, EltTy.bits .f32 = 32 ∨ (Rect.block (s := S128x1) S128x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x1.size a ≤ S128x1.size a
  hwx3_3 : ∀ i : grid3.Coords, EltTy.bits .f32 = 32 ∨ (Rect.block (s := S128x1) S128x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x1.size a ≤ S100000x1.size a
  hwx3_5 : ∀ i : grid3.Coords, EltTy.bits .f32 = 32 ∨ (Rect.block (s := S100000x1) S5000x1.size (cc3_transform_5 i) (hinb3_5 i)).WholeWords (EltTy.packing .f32)

variable [Facts₀]

def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x1_S1x128_S5000x128_1_0_0_1_n_n : DotDims S5000x1 S1x128 S5000x128 where
  lhsContracting := [1]
  rhsContracting := [0]
  lhsNonContracting := [0]
  rhsNonContracting := [1]
  lhsBatch := []
  rhsBatch := []
  wf := dot_S5000x1_S1x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v13) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v35) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v49) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v50) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v51) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S128x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S5000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x1 : Shape := ⟨2, ![100000, 1]⟩
abbrev S2x1600000 : Shape := ⟨2, ![2, 1600000]⟩
abbrev S1x128 : Shape := ⟨2, ![1, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x128 : Shape := ⟨2, ![100000, 128]⟩
abbrev S1600000x128 : Shape := ⟨2, ![1600000, 128]⟩
abbrev S1x1 : Shape := ⟨2, ![1, 1]⟩

abbrev nBuf : Space → Nat
  | .hbm => 163
  | .vmem => 0
  | .smem => 0
  | _ => 0

abbrev hbmTy0_0 (i : Nat) : BufTy := match i % 128 with
  | 0 => ⟨S100000x1, .f32⟩
  | 1 => ⟨S2x1600000, .i32⟩
  | 2 => ⟨S1x128, .f32⟩
  | 3 => ⟨S1x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x1, .f32⟩
  | 12 => ⟨S128x1, .f32⟩
  | 13 => ⟨S1, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S128, .f32⟩
  | 23 => ⟨S128, .f32⟩
  | 24 => ⟨S128, .f32⟩
  | 25 => ⟨S128, .f32⟩
  | 26 => ⟨S1x1600000, .i32⟩
  | 27 => ⟨S1600000, .i32⟩
  | 28 => ⟨S1x1600000, .i32⟩
  | 29 => ⟨S1600000, .i32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x1, .f32⟩
  | 39 => ⟨S_, .f32⟩
  | 40 => ⟨S100000x1, .f32⟩
  | 41 => ⟨S1600000x1, .i32⟩
  | 42 => ⟨S100000x1, .f32⟩
  | 43 => ⟨S100000x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S128, .f32⟩
  | 54 => ⟨S128, .f32⟩
  | 55 => ⟨S128, .f32⟩
  | 56 => ⟨S1x128, .f32⟩
  | 57 => ⟨S100000x128, .f32⟩
  | 58 => ⟨S100000x128, .f32⟩
  | 59 => ⟨S1x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x128, .f32⟩
  | 77 => ⟨S_, .f32⟩
  | 78 => ⟨S100000x128, .f32⟩
  | 79 => ⟨S1600000x1, .i32⟩
  | 80 => ⟨S100000x128, .f32⟩
  | 81 => ⟨S100000x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S128, .f32⟩
  | 92 => ⟨S128, .f32⟩
  | 93 => ⟨S128, .f32⟩
  | 94 => ⟨S1x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x128, .f32⟩
  | 115 => ⟨S_, .f32⟩
  | 116 => ⟨S100000x128, .f32⟩
  | 117 => ⟨S1600000x1, .i32⟩
  | 118 => ⟨S100000x128, .f32⟩
  | 119 => ⟨S100000x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x1, .f32⟩

abbrev hbmTy0_1 (i : Nat) : BufTy := match i % 128 with
  | 0 => ⟨S_, .f32⟩
  | 1 => ⟨S128, .f32⟩
  | 2 => ⟨S128, .f32⟩
  | 3 => ⟨S128, .f32⟩
  | 4 => ⟨S1x128, .f32⟩
  | 5 => ⟨S100000x128, .f32⟩
  | 6 => ⟨S100000x128, .f32⟩
  | 7 => ⟨S1x128, .f32⟩
  | 8 => ⟨S100000x128, .f32⟩
  | 9 => ⟨S100000x128, .f32⟩
  | 10 => ⟨S1x128, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S_, .f32⟩
  | 26 => ⟨S100000x128, .f32⟩
  | 27 => ⟨S1600000x1, .i32⟩
  | 28 => ⟨S100000x128, .f32⟩
  | 29 => ⟨S100000x1, .f32⟩
  | 30 => ⟨S100000x1, .f32⟩
  | 31 => ⟨S100000x1, .f32⟩
  | 32 => ⟨S1x1, .f32⟩
  | 33 => ⟨S100000x1, .f32⟩
  | 34 => ⟨S100000x1, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_1 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_call0_cst : Ref sig .tc := ⟨.hbm, 65, rfl⟩
abbrev main_call0_v0 : Ref sig .tc := ⟨.hbm, 66, rfl⟩
abbrev main_v35 : Ref sig .tc := ⟨.hbm, 67, rfl⟩
abbrev main_c_2 : Ref sig .tc := ⟨.hbm, 68, rfl⟩
abbrev main_v36 : Ref sig .tc := ⟨.hbm, 69, rfl⟩
abbrev main_v37 : Ref sig .tc := ⟨.hbm, 70, rfl⟩
abbrev main_c_3 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_4 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_5 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_call1_cst : Ref sig .tc := ⟨.hbm, 103, rfl⟩
abbrev main_call1_v0 : Ref sig .tc := ⟨.hbm, 104, rfl⟩
abbrev main_v67 : Ref sig .tc := ⟨.hbm, 105, rfl⟩
abbrev main_c_6 : Ref sig .tc := ⟨.hbm, 106, rfl⟩
abbrev main_v68 : Ref sig .tc := ⟨.hbm, 107, rfl⟩
abbrev main_v69 : Ref sig .tc := ⟨.hbm, 108, rfl⟩
abbrev main_c_7 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_8 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_9 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_call2_cst : Ref sig .tc := ⟨.hbm, 141, rfl⟩
abbrev main_call2_v0 : Ref sig .tc := ⟨.hbm, 142, rfl⟩
abbrev main_v99 : Ref sig .tc := ⟨.hbm, 143, rfl⟩
abbrev main_c_10 : Ref sig .tc := ⟨.hbm, 144, rfl⟩
abbrev main_v100 : Ref sig .tc := ⟨.hbm, 145, rfl⟩
abbrev main_v101 : Ref sig .tc := ⟨.hbm, 146, rfl⟩
abbrev main_c_11 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_12 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x1 : S_.BroadcastsInDim S100000x1 (![] : Fin 0 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S100000x128 : S_.BroadcastsInDim S100000x128 (![] : Fin 0 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S100000x1_S1x128_S100000x128_1_0_0_1_n_n_wf : DotDims.WF S100000x1 S1x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.RunNamed.lean ====
/-
  The kernel program's run with its result named.

  The program is four regions among four stretches of host operations. Its generated run threads the contents of
  every buffer through the eight segments; after the last one every unscoped buffer of a core holds the last
  boundary's contents. Read at the result buffer (and at the arguments, which nothing writes), that gives: every
  weakly fair execution terminates without a fault, the result buffer holding what the fold through the segments
  leaves there and every argument array as launched.
-/
import proofs.«108992_j77670188581370_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument array as launched. -/
theorem run_named : θ_run defs (onTc (τ := τ) (main (F := F))) ⟨m, fun _ => 0, ρ⟩ (fun r => ∀ c : Dev nD,
      r.2.mem ((c.tc : Thread nD τ).loc main_v63) = W8 m ρ c (Proc.devRef .tc main_v63)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v63 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c),
       (h c _ (mem_uc main_arg21 (by decide))).trans (W8_main_arg21 m ρ c),
       (h c _ (mem_uc main_arg22 (by decide))).trans (W8_main_arg22 m ρ c),
       (h c _ (mem_uc main_arg23 (by decide))).trans (W8_main_arg23 m ρ c),
       (h c _ (mem_uc main_arg24 (by decide))).trans (W8_main_arg24 m ρ c),
       (h c _ (mem_uc main_arg25 (by decide))).trans (W8_main_arg25 m ρ c)⟩)

end Cert.KernelIdeal.Named

end
-- ==== Proof.Net.lean ====
/-
  The network both programs compute, written once over arbitrary arrays in the host's operations.

  A graph has 100000 nodes and 1600000 edges; row 0 of the edge array holds each edge's source node, row 1 its
  destination. Aggregation gathers the source's feature row for every edge (a negative source index first wrapped by
  adding 100000) and adds it into the destination's row, starting from zero: agg h (i) = ∑ over edges into i of h (src).
  A layer maps node features h to

      clamp₀ ( ( agg h · Wl + h · Wr + b − μ ) · rsqrt (σ + ε) · γ + β ),

  per column the running mean μ, running variance σ, scale γ and shift β; three such layers (feature widths
  1 → 128 → 128 → 128) are followed by a plain linear one, agg h · Wl + h · Wr + b, of width 1.
-/
import proofs.«108992_j77670188581370_1_alg».proof.Proof.Gen.ReferenceIdeal

noncomputable section

namespace Cert.Net

open Cert.ReferenceIdeal Cert.ReferenceIdeal.Gen Idealize.ShloMosaic

variable {F : FTy → Type} [FloatOps F]

/-- The contents of an array of the given shape and element type. -/
abbrev Arr (F : FTy → Type) (s : Shape) (e : EltTy) : Type := (⟨s, e⟩ : BufTy).Contents (Elt F)

/-- Each edge's source node: row 0 of the edge array. -/
def srcRow (e : Arr F S2x1600000 .i32) : Arr F S1600000 .i32 :=
  shapeCast _ (extractStridedSlice S1x1600000 ![0, 0] e slices_S2x1600000_S1x1600000_0_0) shapeCasts_S1x1600000_S1600000

/-- The source nodes as a column of gather indices, a negative one wrapped around by adding the node count. -/
def srcCol (e : Arr F S2x1600000 .i32) : Arr F S1600000x1 .i32 :=
  broadcastInDim S1600000x1 ![0] bcast_S1600000_S1600000x1_0
    (select (cmpi .slt (srcRow e) (broadcastInDim S1600000 ![] bcast_S_S1600000 (constantI S_ 32 0#32)))
      (addi (srcRow e) (broadcastInDim S1600000 ![] bcast_S_S1600000 (constantI S_ 32 100000#32))) (srcRow e))

/-- Each edge's destination node (row 1 of the edge array) as a column of scatter indices. -/
def dstCol (e : Arr F S2x1600000 .i32) : Arr F S1600000x1 .i32 :=
  broadcastInDim S1600000x1 ![0] bcast_S1600000_S1600000x1_0
    (shapeCast _ (extractStridedSlice S1x1600000 ![1, 0] e slices_S2x1600000_S1x1600000_1_0) shapeCasts_S1x1600000_S1600000)

/-- Neighbour sums of one-column features. -/
def agg1 (e : Arr F S2x1600000 .i32) (h : Arr F S100000x1 .f32) : Arr F S100000x1 .f32 :=
  Host.scatterAdd scatter_S100000x1_S1600000x1_S1600000x1_1_0_0_1
    (broadcastInDim S100000x1 ![] bcast_S_S100000x1 (constant S_ .f32 0x00000000#32)) (dstCol e)
    (Host.gather gather_S100000x1_S1600000x1_S1600000x1_1_0_n_n_0_1_11 h (srcCol e))

/-- Neighbour sums of 128-column features. -/
def agg (e : Arr F S2x1600000 .i32) (h : Arr F S100000x128 .f32) : Arr F S100000x128 .f32 :=
  Host.scatterAdd scatter_S100000x128_S1600000x1_S1600000x128_1_0_0_1
    (broadcastInDim S100000x128 ![] bcast_S_S100000x128 (constant S_ .f32 0x00000000#32)) (dstCol e)
    (Host.gather gather_S100000x128_S1600000x1_S1600000x128_1_0_n_n_0_1_1128 h (srcCol e))

/-- A per-column vector laid along every row of the feature matrix. -/
abbrev rows (v : Arr F S128 .f32) : Arr F S100000x128 .f32 :=
  broadcastInDim S100000x128 ![0, 1] bcast_S1x128_S100000x128_0_1 (broadcastInDim S1x128 ![1] bcast_S128_S1x128_1 v)

/-- Normalise with running statistics, scale, shift, and clamp below at zero. -/
def normed (y : Arr F S100000x128 .f32) (g be mu var : Arr F S128 .f32) : Arr F S100000x128 .f32 :=
  maximumf (addf (mulf (mulf (subf y (rows mu))
      (rows (Host.rsqrt (addf var (broadcastInDim S128 ![] bcast_S_S128 (constant S_ .f32 0x3727C5AC#32))))))
      (rows g)) (rows be))
    (broadcastInDim S100000x128 ![] bcast_S_S100000x128 (constant S_ .f32 0x00000000#32))

/-- The first layer: features of width 1 to width 128. -/
def layer1 (a x : Arr F S100000x1 .f32) (wl wr : Arr F S1x128 .f32) (b g be mu var : Arr F S128 .f32) :
    Arr F S100000x128 .f32 :=
  normed (addf (addf (Host.dotGeneral dot_S100000x1_S1x128_S100000x128_1_0_0_1_n_n none a wl)
      (Host.dotGeneral dot_S100000x1_S1x128_S100000x128_1_0_0_1_n_n none x wr)) (rows b)) g be mu var

/-- A middle layer: features of width 128 to width 128. -/
def layer (a x : Arr F S100000x128 .f32) (wl wr : Arr F S128x128 .f32) (b g be mu var : Arr F S128 .f32) :
    Arr F S100000x128 .f32 :=
  normed (addf (addf (Host.dotGeneral dot_S100000x128_S128x128_S100000x128_1_0_0_1_n_n none a wl)
      (Host.dotGeneral dot_S100000x128_S128x128_S100000x128_1_0_0_1_n_n none x wr)) (rows b)) g be mu var

/-- The last layer: linear only, features of width 128 to width 1. -/
def layerOut (a x : Arr F S100000x128 .f32) (wl wr : Arr F S128x1 .f32) (b : Arr F S1 .f32) : Arr F S100000x1 .f32 :=
  addf (addf (Host.dotGeneral dot_S100000x128_S128x1_S100000x1_1_0_0_1_n_n none a wl)
      (Host.dotGeneral dot_S100000x128_S128x1_S100000x1_1_0_0_1_n_n none x wr))
    (broadcastInDim S100000x1 ![0, 1] bcast_S1x1_S100000x1_0_1 (broadcastInDim S1x1 ![1] bcast_S1_S1x1_1 b))

/-- Node features after the first layer. -/
def hid1 (x : Arr F S100000x1 .f32) (e : Arr F S2x1600000 .i32) (wl1 wr1 : Arr F S1x128 .f32)
    (b1 g1 be1 m1 v1 : Arr F S128 .f32) : Arr F S100000x128 .f32 :=
  layer1 (agg1 e x) x wl1 wr1 b1 g1 be1 m1 v1

/-- One middle layer applied to node features. -/
def step (e : Arr F S2x1600000 .i32) (h : Arr F S100000x128 .f32) (wl wr : Arr F S128x128 .f32)
    (b g be mu var : Arr F S128 .f32) : Arr F S100000x128 .f32 :=
  layer (agg e h) h wl wr b g be mu var

/-- The last layer applied to node features. -/
def final (e : Arr F S2x1600000 .i32) (h : Arr F S100000x128 .f32) (wl wr : Arr F S128x1 .f32) (b : Arr F S1 .f32) :
    Arr F S100000x1 .f32 :=
  layerOut (agg e h) h wl wr b

end Cert.Net

end
-- ==== Proof.Walk.lean ====
/-
  Buffers that outlive their stretch of host operations.

  The edge array's two rows are sliced out once, before the first region, and every later aggregation reads them
  again; each layer's weights and per-column vectors are argument arrays read only when their layer is reached.
  No region writes any of these buffers and no later host operation does, so at every later segment boundary they
  still hold what the first stretch left there (for an argument: the launch contents).
-/
import proofs.«108992_j77670188581370_1_alg».proof.Proof.Gen.KernelIdeal.Frame
import proofs.«108992_j77670188581370_1_alg».proof.Proof.Net
import Idealize.ShloMosaic.PureOps.Ideal

set_option maxRecDepth 16384

noncomputable section

namespace Cert.KernelIdeal.Walk

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- Each edge's destination node: row 1 of the edge array. -/
def dstRow (e : Net.Arr Ideal S2x1600000 .i32) : Net.Arr Ideal S1600000 .i32 :=
  shapeCast S1600000 (extractStridedSlice S1x1600000 ![1, 0] e slices_S2x1600000_S1x1600000_1_0) shapeCasts_S1x1600000_S1600000

theorem at2_main_v1 (c : Dev nD) : W2 m ρ c (Proc.devRef .tc main_v1) = Net.srcRow (F := Ideal) (m ((c : Thread nD τ).loc main_arg1)) := by
  rw [W2_of_ne m ρ c main_v1 (by decide)]
  dsimp only [W1, hostOps0]
  after_results
  all_goals rfl

theorem at2_main_v3 (c : Dev nD) : W2 m ρ c (Proc.devRef .tc main_v3) = dstRow (m ((c : Thread nD τ).loc main_arg1)) := by
  rw [W2_of_ne m ρ c main_v3 (by decide)]
  dsimp only [W1, hostOps0]
  after_results
  all_goals rfl

theorem at2_main_arg5 (c : Dev nD) : W2 m ρ c (Proc.devRef .tc main_arg5) = m ((c : Thread nD τ).loc main_arg5) := by
  rw [W2_of_ne m ρ c main_arg5 (by decide)]
  dsimp only [W1, hostOps0]
  after_results
  all_goals rfl

theorem at2_main_arg6 (c : Dev nD) : W2 m ρ c (Proc.devRef .tc main_arg6) = m ((c : Thread nD τ).loc main_arg6) := by
  rw [W2_of_ne m ρ c main_arg6 (by decide)]
  dsimp only [W1, hostOps0]
  after_results
  all_goals rfl

theorem at2_main_arg7 (c : Dev nD) : W2 m ρ c (Proc.devRef .tc main_arg7) = m ((c : Thread nD τ).loc main_arg7) := by
  rw [W2_of_ne m ρ c main_arg7 (by decide)]
  dsimp only [W1, hostOps0]
  after_results
  all_goals rfl

theorem at2_main_arg18 (c : Dev nD) : W2 m ρ c (Proc.devRef .tc main_arg18) = m ((c : Thread nD τ).loc main_arg18) := by
  rw [W2_of_ne m ρ c main_arg18 (by decide)]
  dsimp only [W1, hostOps0]
  after_results
  all_goals rfl

theorem at2_main_arg19 (c : Dev nD) : W2 m ρ c (Proc.devRef .tc main_arg19) = m ((c : Thread nD τ).loc main_arg19) := by
  rw [W2_of_ne m ρ c main_arg19 (by decide)]
  dsimp only [W1, hostOps0]
  after_results
  all_goals rfl

theorem at2_main_arg20 (c : Dev nD) : W2 m ρ c (Proc.devRef .tc main_arg20) = m ((c : Thread nD τ).loc main_arg20) := by
  rw [W2_of_ne m ρ c main_arg20 (by decide)]
  dsimp only [W1, hostOps0]
  after_results
  all_goals rfl

theorem at2_main_arg21 (c : Dev nD) : W2 m ρ c (Proc.devRef .tc main_arg21) = m ((c : Thread nD τ).loc main_arg21) := by
  rw [W2_of_ne m ρ c main_arg21 (by decide)]
  dsimp only [W1, hostOps0]
  after_results
  all_goals rfl

theorem at2_main_arg8 (c : Dev nD) : W2 m ρ c (Proc.devRef .tc main_arg8) = m ((c : Thread nD τ).loc main_arg8) := by
  rw [W2_of_ne m ρ c main_arg8 (by decide)]
  dsimp only [W1, hostOps0]
  after_results
  all_goals rfl

theorem at2_main_arg9 (c : Dev nD) : W2 m ρ c (Proc.devRef .tc main_arg9) = m ((c : Thread nD τ).loc main_arg9) := by
  rw [W2_of_ne m ρ c main_arg9 (by decide)]
  dsimp only [W1, hostOps0]
  after_results
  all_goals rfl

theorem at2_main_arg10 (c : Dev nD) : W2 m ρ c (Proc.devRef .tc main_arg10) = m ((c : Thread nD τ).loc main_arg10) := by
  rw [W2_of_ne m ρ c main_arg10 (by decide)]
  dsimp only [W1, hostOps0]
  after_results
  all_goals rfl

theorem at2_main_arg22 (c : Dev nD) : W2 m ρ c (Proc.devRef .tc main_arg22) = m ((c : Thread nD τ).loc main_arg22) := by
  rw [W2_of_ne m ρ c main_arg22 (by decide)]
  dsimp only [W1, hostOps0]
  after_results
  all_goals rfl

theorem at2_main_arg23 (c : Dev nD) : W2 m ρ c (Proc.devRef .tc main_arg23) = m ((c : Thread nD τ).loc main_arg23) := by
  rw [W2_of_ne m ρ c main_arg23 (by decide)]
  dsimp only [W1, hostOps0]
  after_results
  all_goals rfl

theorem at2_main_arg24 (c : Dev nD) : W2 m ρ c (Proc.devRef .tc main_arg24) = m ((c : Thread nD τ).loc main_arg24) := by
  rw [W2_of_ne m ρ c main_arg24 (by decide)]
  dsimp only [W1, hostOps0]
  after_results
  all_goals rfl

theorem at2_main_arg25 (c : Dev nD) : W2 m ρ c (Proc.devRef .tc main_arg25) = m ((c : Thread nD τ).loc main_arg25) := by
  rw [W2_of_ne m ρ c main_arg25 (by decide)]
  dsimp only [W1, hostOps0]
  after_results
  all_goals rfl

theorem at2_main_arg11 (c : Dev nD) : W2 m ρ c (Proc.devRef .tc main_arg11) = m ((c : Thread nD τ).loc main_arg11) := by
  rw [W2_of_ne m ρ c main_arg11 (by decide)]
  dsimp only [W1, hostOps0]
  after_results
  all_goals rfl

theorem at2_main_arg12 (c : Dev nD) : W2 m ρ c (Proc.devRef .tc main_arg12) = m ((c : Thread nD τ).loc main_arg12) := by
  rw [W2_of_ne m ρ c main_arg12 (by decide)]
  dsimp only [W1, hostOps0]
  after_results
  all_goals rfl

theorem at2_main_arg13 (c : Dev nD) : W2 m ρ c (Proc.devRef .tc main_arg13) = m ((c : Thread nD τ).loc main_arg13) := by
  rw [W2_of_ne m ρ c main_arg13 (by decide)]
  dsimp only [W1, hostOps0]
  after_results
  all_goals rfl

theorem at4_main_v1 (c : Dev nD) : W4 m ρ c (Proc.devRef .tc main_v1) = Net.srcRow (F := Ideal) (m ((c : Thread nD τ).loc main_arg1)) := by
  rw [W4_of_ne m ρ c main_v1 (by decide)]
  dsimp only [W3, hostOps1]
  after_results
  exact at2_main_v1 m ρ c

theorem at4_main_v3 (c : Dev nD) : W4 m ρ c (Proc.devRef .tc main_v3) = dstRow (m ((c : Thread nD τ).loc main_arg1)) := by
  rw [W4_of_ne m ρ c main_v3 (by decide)]
  dsimp only [W3, hostOps1]
  after_results
  exact at2_main_v3 m ρ c

theorem at4_main_arg8 (c : Dev nD) : W4 m ρ c (Proc.devRef .tc main_arg8) = m ((c : Thread nD τ).loc main_arg8) := by
  rw [W4_of_ne m ρ c main_arg8 (by decide)]
  dsimp only [W3, hostOps1]
  after_results
  exact at2_main_arg8 m ρ c

theorem at4_main_arg9 (c : Dev nD) : W4 m ρ c (Proc.devRef .tc main_arg9) = m ((c : Thread nD τ).loc main_arg9) := by
  rw [W4_of_ne m ρ c main_arg9 (by decide)]
  dsimp only [W3, hostOps1]
  after_results
  exact at2_main_arg9 m ρ c

theorem at4_main_arg10 (c : Dev nD) : W4 m ρ c (Proc.devRef .tc main_arg10) = m ((c : Thread nD τ).loc main_arg10) := by
  rw [W4_of_ne m ρ c main_arg10 (by decide)]
  dsimp only [W3, hostOps1]
  after_results
  exact at2_main_arg10 m ρ c

theorem at4_main_arg22 (c : Dev nD) : W4 m ρ c (Proc.devRef .tc main_arg22) = m ((c : Thread nD τ).loc main_arg22) := by
  rw [W4_of_ne m ρ c main_arg22 (by decide)]
  dsimp only [W3, hostOps1]
  after_results
  exact at2_main_arg22 m ρ c

theorem at4_main_arg23 (c : Dev nD) : W4 m ρ c (Proc.devRef .tc main_arg23) = m ((c : Thread nD τ).loc main_arg23) := by
  rw [W4_of_ne m ρ c main_arg23 (by decide)]
  dsimp only [W3, hostOps1]
  after_results
  exact at2_main_arg23 m ρ c

theorem at4_main_arg24 (c : Dev nD) : W4 m ρ c (Proc.devRef .tc main_arg24) = m ((c : Thread nD τ).loc main_arg24) := by
  rw [W4_of_ne m ρ c main_arg24 (by decide)]
  dsimp only [W3, hostOps1]
  after_results
  exact at2_main_arg24 m ρ c

theorem at4_main_arg25 (c : Dev nD) : W4 m ρ c (Proc.devRef .tc main_arg25) = m ((c : Thread nD τ).loc main_arg25) := by
  rw [W4_of_ne m ρ c main_arg25 (by decide)]
  dsimp only [W3, hostOps1]
  after_results
  exact at2_main_arg25 m ρ c

theorem at4_main_arg11 (c : Dev nD) : W4 m ρ c (Proc.devRef .tc main_arg11) = m ((c : Thread nD τ).loc main_arg11) := by
  rw [W4_of_ne m ρ c main_arg11 (by decide)]
  dsimp only [W3, hostOps1]
  after_results
  exact at2_main_arg11 m ρ c

theorem at4_main_arg12 (c : Dev nD) : W4 m ρ c (Proc.devRef .tc main_arg12) = m ((c : Thread nD τ).loc main_arg12) := by
  rw [W4_of_ne m ρ c main_arg12 (by decide)]
  dsimp only [W3, hostOps1]
  after_results
  exact at2_main_arg12 m ρ c

theorem at4_main_arg13 (c : Dev nD) : W4 m ρ c (Proc.devRef .tc main_arg13) = m ((c : Thread nD τ).loc main_arg13) := by
  rw [W4_of_ne m ρ c main_arg13 (by decide)]
  dsimp only [W3, hostOps1]
  after_results
  exact at2_main_arg13 m ρ c

theorem at6_main_v1 (c : Dev nD) : W6 m ρ c (Proc.devRef .tc main_v1) = Net.srcRow (F := Ideal) (m ((c : Thread nD τ).loc main_arg1)) := by
  rw [W6_of_ne m ρ c main_v1 (by decide)]
  dsimp only [W5, hostOps2]
  after_results
  exact at4_main_v1 m ρ c

theorem at6_main_v3 (c : Dev nD) : W6 m ρ c (Proc.devRef .tc main_v3) = dstRow (m ((c : Thread nD τ).loc main_arg1)) := by
  rw [W6_of_ne m ρ c main_v3 (by decide)]
  dsimp only [W5, hostOps2]
  after_results
  exact at4_main_v3 m ρ c

theorem at6_main_arg11 (c : Dev nD) : W6 m ρ c (Proc.devRef .tc main_arg11) = m ((c : Thread nD τ).loc main_arg11) := by
  rw [W6_of_ne m ρ c main_arg11 (by decide)]
  dsimp only [W5, hostOps2]
  after_results
  exact at4_main_arg11 m ρ c

theorem at6_main_arg12 (c : Dev nD) : W6 m ρ c (Proc.devRef .tc main_arg12) = m ((c : Thread nD τ).loc main_arg12) := by
  rw [W6_of_ne m ρ c main_arg12 (by decide)]
  dsimp only [W5, hostOps2]
  after_results
  exact at4_main_arg12 m ρ c

theorem at6_main_arg13 (c : Dev nD) : W6 m ρ c (Proc.devRef .tc main_arg13) = m ((c : Thread nD τ).loc main_arg13) := by
  rw [W6_of_ne m ρ c main_arg13 (by decide)]
  dsimp only [W5, hostOps2]
  after_results
  exact at4_main_arg13 m ρ c

end Cert.KernelIdeal.Walk

end
-- ==== Proof.NetOut.lean ====
/-
  The whole network as one function of the 26 argument arrays, in the order both programs take them:
  node features, edge array, the four layers' weights and biases, then the three normalising layers' scale, shift,
  running mean and running variance.
-/
import proofs.«108992_j77670188581370_1_alg».proof.Proof.Net

noncomputable section

namespace Cert.Net

open Cert.ReferenceIdeal Cert.ReferenceIdeal.Gen Idealize.ShloMosaic

variable {F : FTy → Type} [FloatOps F]

/-- Node features after the second layer. -/
def hid2 (a0 : Arr F S100000x1 .f32) (a1 : Arr F S2x1600000 .i32) (a2 : Arr F S1x128 .f32) (a3 : Arr F S1x128 .f32) (a4 : Arr F S128 .f32) (a5 : Arr F S128x128 .f32) (a6 : Arr F S128x128 .f32) (a7 : Arr F S128 .f32) (a8 : Arr F S128x128 .f32) (a9 : Arr F S128x128 .f32) (a10 : Arr F S128 .f32) (a11 : Arr F S128x1 .f32) (a12 : Arr F S128x1 .f32) (a13 : Arr F S1 .f32) (a14 : Arr F S128 .f32) (a15 : Arr F S128 .f32) (a16 : Arr F S128 .f32) (a17 : Arr F S128 .f32) (a18 : Arr F S128 .f32) (a19 : Arr F S128 .f32) (a20 : Arr F S128 .f32) (a21 : Arr F S128 .f32) (a22 : Arr F S128 .f32) (a23 : Arr F S128 .f32) (a24 : Arr F S128 .f32) (a25 : Arr F S128 .f32) : Arr F S100000x128 .f32 :=
  step a1 (hid1 a0 a1 a2 a3 a4 a14 a15 a16 a17) a5 a6 a7 a18 a19 a20 a21

/-- Node features after the third layer. -/
def hid3 (a0 : Arr F S100000x1 .f32) (a1 : Arr F S2x1600000 .i32) (a2 : Arr F S1x128 .f32) (a3 : Arr F S1x128 .f32) (a4 : Arr F S128 .f32) (a5 : Arr F S128x128 .f32) (a6 : Arr F S128x128 .f32) (a7 : Arr F S128 .f32) (a8 : Arr F S128x128 .f32) (a9 : Arr F S128x128 .f32) (a10 : Arr F S128 .f32) (a11 : Arr F S128x1 .f32) (a12 : Arr F S128x1 .f32) (a13 : Arr F S1 .f32) (a14 : Arr F S128 .f32) (a15 : Arr F S128 .f32) (a16 : Arr F S128 .f32) (a17 : Arr F S128 .f32) (a18 : Arr F S128 .f32) (a19 : Arr F S128 .f32) (a20 : Arr F S128 .f32) (a21 : Arr F S128 .f32) (a22 : Arr F S128 .f32) (a23 : Arr F S128 .f32) (a24 : Arr F S128 .f32) (a25 : Arr F S128 .f32) : Arr F S100000x128 .f32 :=
  step a1 (hid2 a0 a1 a2 a3 a4 a5 a6 a7 a8 a9 a10 a11 a12 a13 a14 a15 a16 a17 a18 a19 a20 a21 a22 a23 a24 a25) a8 a9 a10 a22 a23 a24 a25

/-- The network's output. -/
def out (a0 : Arr F S100000x1 .f32) (a1 : Arr F S2x1600000 .i32) (a2 : Arr F S1x128 .f32) (a3 : Arr F S1x128 .f32) (a4 : Arr F S128 .f32) (a5 : Arr F S128x128 .f32) (a6 : Arr F S128x128 .f32) (a7 : Arr F S128 .f32) (a8 : Arr F S128x128 .f32) (a9 : Arr F S128x128 .f32) (a10 : Arr F S128 .f32) (a11 : Arr F S128x1 .f32) (a12 : Arr F S128x1 .f32) (a13 : Arr F S1 .f32) (a14 : Arr F S128 .f32) (a15 : Arr F S128 .f32) (a16 : Arr F S128 .f32) (a17 : Arr F S128 .f32) (a18 : Arr F S128 .f32) (a19 : Arr F S128 .f32) (a20 : Arr F S128 .f32) (a21 : Arr F S128 .f32) (a22 : Arr F S128 .f32) (a23 : Arr F S128 .f32) (a24 : Arr F S128 .f32) (a25 : Arr F S128 .f32) : Arr F S100000x1 .f32 :=
  final a1 (hid3 a0 a1 a2 a3 a4 a5 a6 a7 a8 a9 a10 a11 a12 a13 a14 a15 a16 a17 a18 a19 a20 a21 a22 a23 a24 a25) a11 a12 a13

end Cert.Net

end
-- ==== Proof.LibPlainDot.lean ====
/-
  Two general facts about sums, used wherever a matrix product is read entry by entry.

  * A product of an [a, K] matrix with a [K, b] matrix on the matrix unit, accumulated into the zero array, has at
    entry (p, q) the value  ∑ k < K, lhs (p, k) · rhs (k, q)  on the extended reals. The dimension numbers enter only
    through four facts about where the contraction reads its operands, each of which is decided by unfolding for a
    literal record: it contracts the left operand's axis 1 with the right operand's axis 0, and carries the output's
    row to the left operand and the output's column to the right one.
  * A sum over  n = a + b + c  consecutive positions is the sum over the first a, plus the sum over the next b, plus
    the sum over the last c. This holds in any commutative monoid, so on the extended reals it needs no finiteness:
    only the order and grouping of the terms change.
-/
import Idealize.ShloMosaic.PureOps.Ideal.Laws
import Idealize.ShloMosaic.Lib.ValueIdx

noncomputable section

namespace Idealize.ShloMosaic.PlainDot

open Idealize.ShloMosaic Idealize.ShloMosaic.ValueIdx

/-- A sum over `a + b + c` consecutive positions, cut into its three consecutive bands. -/
theorem sum_three_bands {M : Type} [AddCommMonoid M] {a b c n : ℕ} (hn : a + b + c = n) (f : Fin n → M) :
    ∑ k : Fin n, f k
      = (∑ k : Fin a, f ⟨k.val, by omega⟩) + (∑ k : Fin b, f ⟨a + k.val, by omega⟩)
        + ∑ k : Fin c, f ⟨a + b + k.val, by omega⟩ := by
  subst hn
  rw [Fin.sum_univ_add, Fin.sum_univ_add]
  rfl

/-- Entry (p, q) of an [a, K] × [K, b] product into the zero accumulator is the sum over the contracted position
    of the row's entry times the column's entry. -/
theorem matmul_zero_ix2 {a K b : ℕ} {φ₁ φ₂ : FTy}
    (d : DotDims (⟨2, ![a, K]⟩ : Shape) (⟨2, ![K, b]⟩ : Shape) (⟨2, ![a, b]⟩ : Shape))
    (hr : d.contr.rank = 1) (hs : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (prec : Option ContractPrecision)
    (lhs : FVec Ideal (⟨2, ![a, K]⟩ : Shape) φ₁) (rhs : FVec Ideal (⟨2, ![K, b]⟩ : Shape) φ₂) (p : Fin a) (q : Fin b) :
    FloatOps.matmul d prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 k q := funext fun ax => Fin.ext (by
    match ax with
    | ⟨0, _⟩ => exact (d.rhsIdx_val_of_single hrc _ _).trans hk
    | ⟨1, _⟩ => exact hr1 _ _)
  rw [el, er]

end Idealize.ShloMosaic.PlainDot

end
-- ==== Proof.LibHostDot.lean ====
/-
  The host's product of two matrices, read entry by entry.

  On the extended reals the host's `dot_general` of an [a, K] matrix with a [K, b] matrix that contracts the left
  operand's axis 1 with the right operand's axis 0 has at entry (p, q) the value  ∑ k < K, lhs (p, k) · rhs (k, q).

  The host's product and the matrix unit's product into the zero accumulator are, entry by entry, the same sum over
  the contracted positions (the accumulator's zero adds nothing), for any dimension numbers and any extents; the
  entry-by-entry reading of the matrix unit's product then carries over word for word. No finiteness is used: the
  two sides are the same sum of the same terms.
-/
import Idealize.ShloMosaic.PureOps.Ideal.Laws
import Idealize.ShloMosaic.Lib.ValueIdx
import proofs.«108992_j77670188581370_1_alg».proof.Proof.LibPlainDot

noncomputable section

namespace Idealize.ShloMosaic.HostDot

open Idealize.ShloMosaic Idealize.ShloMosaic.ValueIdx

/-- At every output index the host's product is the matrix unit's product into the zero accumulator: both are the
    sum, over the contracted positions, of the left operand's entry times the right operand's entry. -/
theorem dotGeneral_eq_matmul_zero {sl sr so : Shape} {φ₁ φ₂ : FTy} (d : DotDims sl sr so)
    (prec prec' : Option ContractPrecision) (sched : HostSchedule)
    (lhs : FVec Ideal sl φ₁) (rhs : FVec Ideal sr φ₂) (j : so.Idx) :
    FloatOps.dotGeneral d prec sched lhs rhs j
      = FloatOps.matmul d prec' lhs rhs (constant so .f32 0x00000000#32) j :=
  (Ideal.dotGeneral_apply d prec sched lhs rhs j).trans (Ideal.matmul_constant_zero_apply d prec' lhs rhs j).symm

/-- Entry (p, q) of the host's [a, K] × [K, b] product is the sum over the contracted position of the row's entry
    times the column's entry. The four facts about the dimension numbers are decided by unfolding for a literal
    record. -/
theorem dotGeneral_ix2 {a K b : ℕ} {φ₁ φ₂ : FTy}
    (d : DotDims (⟨2, ![a, K]⟩ : Shape) (⟨2, ![K, b]⟩ : Shape) (⟨2, ![a, b]⟩ : Shape))
    (hr : d.contr.rank = 1) (hs : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (prec : Option ContractPrecision) (sched : HostSchedule)
    (lhs : FVec Ideal (⟨2, ![a, K]⟩ : Shape) φ₁) (rhs : FVec Ideal (⟨2, ![K, b]⟩ : Shape) φ₂) (p : Fin a) (q : Fin b) :
    FloatOps.dotGeneral d prec sched lhs rhs (ix2 p q) = ∑ k : Fin K, lhs (ix2 p k) * rhs (ix2 k q) :=
  (dotGeneral_eq_matmul_zero d prec prec sched lhs rhs (ix2 p q)).trans
    (PlainDot.matmul_zero_ix2 d hr hs hlc hrc hl0 hr1 prec lhs rhs p q)

end Idealize.ShloMosaic.HostDot

end
-- ==== Proof.LibKeepdims.lean ====
/-
  Layout operations of a row-wise reduction kept as a column, read at an index written by coordinates:
  a block with two leading unit axes viewed as a matrix and back, a vector viewed as a one-column matrix,
  and a one-column matrix broadcast along its rows.  Each is the general read-at-an-index lemma of the
  layout operation with the operand's index already chosen.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector kept as a column and broadcast along the rows reads, at `(p, c)`, the vector at `p`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.LibKeepdims

end
-- ==== Proof.LibHostLayout.lean ====
/-
  Layout operations of a host program read at ix-coordinates, over any extents and any element type.

  * broadcast_in_dim of a column [a, 1] across b columns (dims [0, 1]) reads the column's entry of that row;
  * broadcast_in_dim of a vector [a] kept as a column [a, 1] (dims [0]) reads the vector's entry of that row;
  * broadcast_in_dim of a vector [b] kept as a row [1, b] (dims [1]) reads the vector's entry of that column;
  * a reshape of [a, b] to the flat [n], n = a · b, reads at position q the entry (q / b, q % b);
  * a reshape of [a, n] to [a, b, c], n = b · c, reads at (i, j, d) the entry (i, j · c + d).
  Each is the row-major position of the two indices being the same number.
-/
import Idealize.ShloMosaic.Lib.ValueIdx
import Idealize.ShloMosaic.Lib.Pipeline.Value

noncomputable section

namespace Idealize.ShloMosaic.HostLayout

open Idealize.ShloMosaic Idealize.ShloMosaic.ValueIdx

variable {α : Type}

/-- A column broadcast across `b` columns, read at (r, t), is the column's entry of row r. -/
theorem broadcastInDim_col_apply {a b : ℕ} (h : (⟨2, ![a, 1]⟩ : Shape).BroadcastsInDim ⟨2, ![a, b]⟩ ![0, 1])
    (y : (⟨2, ![a, 1]⟩ : Shape).Idx → α) (r : Fin a) (t : Fin b) :
    broadcastInDim ⟨2, ![a, b]⟩ ![0, 1] h y (ix2 r t) = y (ix2 r (0 : Fin 1)) := by
  refine broadcastInDim_apply ![0, 1] h y (ix2 r t) (ix2 r (0 : Fin 1)) ?_
  intro ax
  fin_cases ax
  · show r.val = if a = 1 then 0 else r.val
    split_ifs with ha
    · have := r.isLt; omega
    · rfl
  · show (0 : ℕ) = if (1 : ℕ) = 1 then 0 else _
    simp

/-- A vector kept as a column, read at (r, 0), is the vector's entry r. -/
theorem broadcastInDim_vec_col_apply {a : ℕ} (h : (⟨1, ![a]⟩ : Shape).BroadcastsInDim ⟨2, ![a, 1]⟩ ![0])
    (y : (⟨1, ![a]⟩ : Shape).Idx → α) (r : Fin a) :
    broadcastInDim ⟨2, ![a, 1]⟩ ![0] h y (ix2 r (0 : Fin 1)) = y (ix1 r) := by
  refine broadcastInDim_apply ![0] h y (ix2 r (0 : Fin 1)) (ix1 r) ?_
  intro ax
  fin_cases ax
  show r.val = if a = 1 then 0 else r.val
  split_ifs with ha
  · have := r.isLt; omega
  · rfl

/-- A vector kept as a row, read at (0, t), is the vector's entry t. -/
theorem broadcastInDim_vec_row_apply {b : ℕ} (h : (⟨1, ![b]⟩ : Shape).BroadcastsInDim ⟨2, ![1, b]⟩ ![1])
    (y : (⟨1, ![b]⟩ : Shape).Idx → α) (t : Fin b) :
    broadcastInDim ⟨2, ![1, b]⟩ ![1] h y (ix2 (0 : Fin 1) t) = y (ix1 t) := by
  refine broadcastInDim_apply ![1] h y (ix2 (0 : Fin 1) t) (ix1 t) ?_
  intro ax
  fin_cases ax
  show t.val = if b = 1 then 0 else t.val
  split_ifs with hb
  · have := t.isLt; omega
  · rfl

/-- A matrix flattened row by row: position q reads the entry (q / b, q % b). -/
theorem shapeCast_flatten_apply {a b n : ℕ} (hb : 0 < b)
    (h : (⟨2, ![a, b]⟩ : Shape).ShapeCasts ⟨1, ![n]⟩) (x : (⟨2, ![a, b]⟩ : Shape).Idx → α)
    (q : Fin n) (hq : q.val / b < a) :
    shapeCast ⟨1, ![n]⟩ x h (ix1 q) = x (ix2 ⟨q.val / b, hq⟩ ⟨q.val % b, Nat.mod_lt _ hb⟩) := by
  refine shapeCast_apply x h (ix1 q) _ ?_
  rw [Shape.rowMajor_val_two, Shape.rowMajor_val_one]
  show q.val / b * b + q.val % b = q.val
  exact Nat.div_add_mod' _ _

/-- The last axis split in two: entry (i, j, d) reads the entry (i, j · c + d). -/
theorem shapeCast_split_last_apply {a b c n : ℕ} (hn : n = b * c)
    (h : (⟨2, ![a, n]⟩ : Shape).ShapeCasts ⟨3, ![a, b, c]⟩) (x : (⟨2, ![a, n]⟩ : Shape).Idx → α)
    (i : Fin a) (j : Fin b) (d : Fin c) (hlt : j.val * c + d.val < n) :
    shapeCast ⟨3, ![a, b, c]⟩ x h (ix3 i j d) = x (ix2 i ⟨j.val * c + d.val, hlt⟩) := by
  refine shapeCast_apply x h (ix3 i j d) _ ?_
  rw [Shape.rowMajor_val_two, Shape.rowMajor_val_three]
  show i.val * n + (j.val * c + d.val) = (i.val * b + j.val) * c + d.val
  rw [hn]; ring

end Idealize.ShloMosaic.HostLayout

end
-- ==== Proof.LibScaledRows.lean ====
/-
  Rows of a matrix scaled by a column, added to a row of biases, clamped below at zero, and multiplied by a weight
  matrix, read entry by entry on the extended reals — once in the spelling a vector unit uses for a block of rows
  (a column broadcast along the lanes, a one-row matrix broadcast down the sublanes, operands narrowed to a shorter
  float format on the way into the matrix unit, the product accumulated into a zero array) and once in the spelling
  of a host program over the whole matrix (a column and a one-row matrix broadcast in dimensions, a product with no
  accumulator).

  At the ideal values a change of float format is the identity and the zero accumulator adds nothing, so both
  spellings have the same entries:

    scaled rows            (p, k) ↦ x (p, k) · s (p)
    scaled, biased, clamped (p, k) ↦ max (x (p, k) · s (p) + β (k)) 0
    product                (p, q) ↦ ∑ k, A (p, k) · W (k, q).

  No law of arithmetic is used beyond reading each operation at an index: the two sides are the same expression of the
  same entries, so nothing here needs the entries to be finite.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import proofs.«108992_j77670188581370_1_alg».proof.Proof.LibPlainDot
import proofs.«108992_j77670188581370_1_alg».proof.Proof.LibHostDot
import proofs.«108992_j77670188581370_1_alg».proof.Proof.LibKeepdims
import proofs.«108992_j77670188581370_1_alg».proof.Proof.LibHostLayout

noncomputable section

namespace Cert.LibScaledRows

open Idealize.ShloMosaic Idealize.ShloMosaic.ValueIdx

variable {a K b : ℕ}

/-! ## A block of rows on the vector unit -/

/-- Rows scaled by a column held as an [a, 1] block: entry (p, k) is the row's entry times the column's entry of
    that row. -/
theorem unitScaled_apply (x : FVec Ideal (⟨2, ![a, K]⟩ : Shape) .f32) (s : FVec Ideal (⟨2, ![a, 1]⟩ : Shape) .f32)
    (hs : (⟨2, ![a, 1]⟩ : Shape).ShapeCasts ⟨2, ![a, 1]⟩) (hb : (⟨2, ![a, 1]⟩ : Shape).Broadcasts ⟨2, ![a, K]⟩)
    (p : Fin a) (k : Fin K) :
    mulf x (broadcastTo ⟨2, ![a, K]⟩ (shapeCast ⟨2, ![a, 1]⟩ s hs) hb) (ix2 p k) = x (ix2 p k) * s (ix2 p (0 : Fin 1)) := by
  rw [mulf_apply, shapeCast_self, Cert.LibKeepdims.broadcastTo_a1_ab_apply]

/-- A one-row block of biases laid along every row: entry (p, k) is the bias of column k. -/
theorem unitBias_apply (β : FVec Ideal (⟨2, ![1, K]⟩ : Shape) .f32)
    (hs : (⟨2, ![1, K]⟩ : Shape).ShapeCasts ⟨2, ![1, K]⟩) (hb : (⟨2, ![1, K]⟩ : Shape).Broadcasts ⟨2, ![a, K]⟩)
    (p : Fin a) (k : Fin K) :
    broadcastTo ⟨2, ![a, K]⟩ (shapeCast ⟨2, ![1, K]⟩ β hs) hb (ix2 p k) = β (ix2 (0 : Fin 1) k) := by
  rw [shapeCast_self, broadcastTo_1b_ab_apply]

/-- Rows scaled by a column, a bias added, clamped below at zero. -/
theorem unitAct_apply (x : FVec Ideal (⟨2, ![a, K]⟩ : Shape) .f32) (s : FVec Ideal (⟨2, ![a, 1]⟩ : Shape) .f32)
    (β : FVec Ideal (⟨2, ![1, K]⟩ : Shape) .f32)
    (hx : (⟨2, ![a, K]⟩ : Shape).ShapeCasts ⟨2, ![a, K]⟩)
    (hs : (⟨2, ![a, 1]⟩ : Shape).ShapeCasts ⟨2, ![a, 1]⟩) (hb : (⟨2, ![a, 1]⟩ : Shape).Broadcasts ⟨2, ![a, K]⟩)
    (hs' : (⟨2, ![1, K]⟩ : Shape).ShapeCasts ⟨2, ![1, K]⟩) (hb' : (⟨2, ![1, K]⟩ : Shape).Broadcasts ⟨2, ![a, K]⟩)
    (z : Ideal .f32) (p : Fin a) (k : Fin K) :
    maximumf (addf (mulf (shapeCast ⟨2, ![a, K]⟩ x hx) (broadcastTo ⟨2, ![a, K]⟩ (shapeCast ⟨2, ![a, 1]⟩ s hs) hb))
        (broadcastTo ⟨2, ![a, K]⟩ (shapeCast ⟨2, ![1, K]⟩ β hs') hb')) (broadcast ⟨2, ![a, K]⟩ z) (ix2 p k)
      = max (x (ix2 p k) * s (ix2 p (0 : Fin 1)) + β (ix2 (0 : Fin 1) k)) z := by
  rw [maximumf_apply, addf_apply, shapeCast_self x hx, unitScaled_apply, unitBias_apply, broadcast_apply]

/-- The matrix unit's product of a block with a weight matrix, both narrowed to a shorter float format first, into
    the zero accumulator: entry (p, q) is the sum over the contracted position. -/
theorem unitProduct_apply {ψ : FTy}
    (d : DotDims (⟨2, ![a, K]⟩ : Shape) (⟨2, ![K, b]⟩ : Shape) (⟨2, ![a, b]⟩ : Shape))
    (hr : d.contr.rank = 1) (hsz : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (A : FVec Ideal (⟨2, ![a, K]⟩ : Shape) .f32) (W : FVec Ideal (⟨2, ![K, b]⟩ : Shape) .f32)
    (hlt : ψ.bits < FTy.f32.bits) (p : Fin a) (q : Fin b) :
    matmul d none (truncf ψ A hlt) (truncf ψ W hlt) (constant (⟨2, ![a, b]⟩ : Shape) .f32 0x00000000#32) (ix2 p q)
      = ∑ k : Fin K, A (ix2 p k) * W (ix2 k q) :=
  PlainDot.matmul_zero_ix2 d hr hsz hlc hrc hl0 hr1 none (truncf ψ A hlt) (truncf ψ W hlt) p q

/-! ## The whole matrix on the host -/

/-- Rows scaled by a vector kept as a column and broadcast across the columns. -/
theorem hostScaled_apply (x : FVec Ideal (⟨2, ![a, K]⟩ : Shape) .f32) (s : FVec Ideal (⟨1, ![a]⟩ : Shape) .f32)
    (h₁ : (⟨1, ![a]⟩ : Shape).BroadcastsInDim ⟨2, ![a, 1]⟩ ![0])
    (h₂ : (⟨2, ![a, 1]⟩ : Shape).BroadcastsInDim ⟨2, ![a, K]⟩ ![0, 1]) (p : Fin a) (k : Fin K) :
    mulf x (broadcastInDim ⟨2, ![a, K]⟩ ![0, 1] h₂ (broadcastInDim ⟨2, ![a, 1]⟩ ![0] h₁ s)) (ix2 p k)
      = x (ix2 p k) * s (ix1 p) := by
  rw [mulf_apply, HostLayout.broadcastInDim_col_apply, HostLayout.broadcastInDim_vec_col_apply]

/-- A vector of biases kept as a row and broadcast down the rows. -/
theorem hostBias_apply (β : FVec Ideal (⟨1, ![K]⟩ : Shape) .f32)
    (h₁ : (⟨1, ![K]⟩ : Shape).BroadcastsInDim ⟨2, ![1, K]⟩ ![1])
    (h₂ : (⟨2, ![1, K]⟩ : Shape).BroadcastsInDim ⟨2, ![a, K]⟩ ![0, 1]) (p : Fin a) (k : Fin K) :
    broadcastInDim ⟨2, ![a, K]⟩ ![0, 1] h₂ (broadcastInDim ⟨2, ![1, K]⟩ ![1] h₁ β) (ix2 p k) = β (ix1 k) := by
  rw [broadcastInDim_oneRow_apply, HostLayout.broadcastInDim_vec_row_apply]

/-- Rows scaled, a bias added, clamped below at a splat of a scalar. -/
theorem hostAct_apply (x : FVec Ideal (⟨2, ![a, K]⟩ : Shape) .f32) (s : FVec Ideal (⟨1, ![a]⟩ : Shape) .f32)
    (β : FVec Ideal (⟨1, ![K]⟩ : Shape) .f32)
    (h₁ : (⟨1, ![a]⟩ : Shape).BroadcastsInDim ⟨2, ![a, 1]⟩ ![0])
    (h₂ : (⟨2, ![a, 1]⟩ : Shape).BroadcastsInDim ⟨2, ![a, K]⟩ ![0, 1])
    (h₃ : (⟨1, ![K]⟩ : Shape).BroadcastsInDim ⟨2, ![1, K]⟩ ![1])
    (h₄ : (⟨2, ![1, K]⟩ : Shape).BroadcastsInDim ⟨2, ![a, K]⟩ ![0, 1])
    (h₅ : (⟨0, ![]⟩ : Shape).BroadcastsInDim ⟨2, ![a, K]⟩ ![])
    (z : FVec Ideal (⟨0, ![]⟩ : Shape) .f32) (p : Fin a) (k : Fin K) :
    maximumf (addf (mulf x (broadcastInDim ⟨2, ![a, K]⟩ ![0, 1] h₂ (broadcastInDim ⟨2, ![a, 1]⟩ ![0] h₁ s)))
        (broadcastInDim ⟨2, ![a, K]⟩ ![0, 1] h₄ (broadcastInDim ⟨2, ![1, K]⟩ ![1] h₃ β)))
        (broadcastInDim ⟨2, ![a, K]⟩ ![] h₅ z) (ix2 p k)
      = max (x (ix2 p k) * s (ix1 p) + β (ix1 k)) (z ix0) := by
  rw [maximumf_apply, addf_apply, hostScaled_apply, hostBias_apply]
  congr 1
  exact broadcastInDim_apply ![] h₅ z (ix2 p k) ix0 (fun ax => ax.elim0)

/-- The host's product of the whole matrix with the weight matrix. -/
theorem hostProduct_apply
    (d : DotDims (⟨2, ![a, K]⟩ : Shape) (⟨2, ![K, b]⟩ : Shape) (⟨2, ![a, b]⟩ : Shape))
    (hr : d.contr.rank = 1) (hsz : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (A : FVec Ideal (⟨2, ![a, K]⟩ : Shape) .f32) (W : FVec Ideal (⟨2, ![K, b]⟩ : Shape) .f32) (p : Fin a) (q : Fin b) :
    Host.dotGeneral (F := Ideal) d none A W (ix2 p q) = ∑ k : Fin K, A (ix2 p k) * W (ix2 k q) :=
  HostDot.dotGeneral_ix2 d hr hsz hlc hrc hl0 hr1 none _ A W p q

end Cert.LibScaledRows

end
-- ==== Proof.LibDenseLayer.lean ====
/-
  One dense layer of a message-passing network, read entry by entry on the extended reals.

  The layer takes two matrices A and X with the same rows (a node's summed neighbours and the node itself), two
  weight matrices Wl and Wr, and a bias row, and forms

      lin (p, q) = ∑ k, A (p, k) · Wl (k, q)  +  ∑ k, X (p, k) · Wr (k, q)  +  bias q.

  A normalising layer then applies, column by column, a running mean μ, a running variance σ, a scale γ and a
  shift β', and clamps below:

      norm y = max ((y − μ q) · rsqrt (σ q + ε) · γ q + β' q) z.

  The same two formulas are read off two spellings. A vector unit works on a block of rows: operands narrowed to a
  shorter float format on the way into the matrix unit, products accumulated into a zero array, the per-column
  vectors held as one-row blocks broadcast down the sublanes. A host program works on the whole matrix: products
  without accumulator, per-column vectors broadcast in dimensions first to a row and then down the rows. At the ideal
  values a change of float format is the identity and a zero accumulator adds nothing, so both spellings have, at
  every entry, literally the same expression of the same entries: no law of arithmetic is used, and nothing needs
  the entries to be finite.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import proofs.«108992_j77670188581370_1_alg».proof.Proof.LibScaledRows

noncomputable section

namespace Cert.LibDenseLayer

open Idealize.ShloMosaic Idealize.ShloMosaic.ValueIdx

variable {a K b : ℕ}

/-- One entry of the linear part: the row of A against the column of Wl, the row of X against the column of Wr,
    and the bias of the column. -/
def lin (rowA rowX colL colR : Fin K → EReal) (β : EReal) : EReal :=
  (∑ k : Fin K, rowA k * colL k) + (∑ k : Fin K, rowX k * colR k) + β

/-- One entry of the normalising part: centre, scale by the reciprocal root of the variance plus ε, scale and
    shift, clamp below at z. -/
def norm (y μ σ γ β' ε z : EReal) : EReal :=
  max ((y - μ) * Ideal.rsqrt (σ + ε) * γ + β') z

/-! ## A block of rows on the vector unit -/

/-- The linear part of a block: two products of narrowed operands into zero accumulators, added, plus the one-row
    bias laid along every row. -/
theorem unitLin_apply {ψ : FTy}
    (d : DotDims (⟨2, ![a, K]⟩ : Shape) (⟨2, ![K, b]⟩ : Shape) (⟨2, ![a, b]⟩ : Shape))
    (hr : d.contr.rank = 1) (hsz : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (A X : FVec Ideal (⟨2, ![a, K]⟩ : Shape) .f32) (Wl Wr : FVec Ideal (⟨2, ![K, b]⟩ : Shape) .f32)
    (B : FVec Ideal (⟨2, ![1, b]⟩ : Shape) .f32)
    (hlt : ψ.bits < FTy.f32.bits) (hb : (⟨2, ![1, b]⟩ : Shape).Broadcasts ⟨2, ![a, b]⟩) (p : Fin a) (q : Fin b) :
    addf (addf (matmul d none (truncf ψ A hlt) (truncf ψ Wl hlt) (constant (⟨2, ![a, b]⟩ : Shape) .f32 0x00000000#32))
          (matmul d none (truncf ψ X hlt) (truncf ψ Wr hlt) (constant (⟨2, ![a, b]⟩ : Shape) .f32 0x00000000#32)))
        (broadcastTo ⟨2, ![a, b]⟩ B hb) (ix2 p q)
      = lin (fun k => A (ix2 p k)) (fun k => X (ix2 p k)) (fun k => Wl (ix2 k q)) (fun k => Wr (ix2 k q))
          (B (ix2 (0 : Fin 1) q)) := by
  rw [addf_apply, addf_apply, Cert.LibScaledRows.unitProduct_apply d hr hsz hlc hrc hl0 hr1,
    Cert.LibScaledRows.unitProduct_apply d hr hsz hlc hrc hl0 hr1, broadcastTo_1b_ab_apply]
  rfl

/-- The normalising part of a block: the four per-column vectors are one-row blocks broadcast down the rows. -/
theorem unitNorm_apply (Y : FVec Ideal (⟨2, ![a, b]⟩ : Shape) .f32)
    (Mu Var Ga Be : FVec Ideal (⟨2, ![1, b]⟩ : Shape) .f32)
    (hb : (⟨2, ![1, b]⟩ : Shape).Broadcasts ⟨2, ![a, b]⟩) (ε z : Ideal .f32) (p : Fin a) (q : Fin b) :
    maximumf (addf (mulf (mulf (subf Y (broadcastTo ⟨2, ![a, b]⟩ Mu hb))
            (broadcastTo ⟨2, ![a, b]⟩ (rsqrt (addf Var (broadcast ⟨2, ![1, b]⟩ ε))) hb))
          (broadcastTo ⟨2, ![a, b]⟩ Ga hb)) (broadcastTo ⟨2, ![a, b]⟩ Be hb))
        (broadcast ⟨2, ![a, b]⟩ z) (ix2 p q)
      = norm (Y (ix2 p q)) (Mu (ix2 (0 : Fin 1) q)) (Var (ix2 (0 : Fin 1) q)) (Ga (ix2 (0 : Fin 1) q))
          (Be (ix2 (0 : Fin 1) q)) ε z := by
  rw [maximumf_apply, addf_apply, mulf_apply, mulf_apply, subf_apply, broadcastTo_1b_ab_apply,
    broadcastTo_1b_ab_apply, broadcastTo_1b_ab_apply, broadcastTo_1b_ab_apply, broadcast_apply]
  rfl

/-! ## The whole matrix on the host -/

/-- The linear part of the whole matrix: two host products, added, plus the bias vector broadcast to a row and
    then down the rows. -/
theorem hostLin_apply
    (d : DotDims (⟨2, ![a, K]⟩ : Shape) (⟨2, ![K, b]⟩ : Shape) (⟨2, ![a, b]⟩ : Shape))
    (hr : d.contr.rank = 1) (hsz : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (A X : FVec Ideal (⟨2, ![a, K]⟩ : Shape) .f32) (Wl Wr : FVec Ideal (⟨2, ![K, b]⟩ : Shape) .f32)
    (β : FVec Ideal (⟨1, ![b]⟩ : Shape) .f32)
    (h₁ : (⟨1, ![b]⟩ : Shape).BroadcastsInDim ⟨2, ![1, b]⟩ ![1])
    (h₂ : (⟨2, ![1, b]⟩ : Shape).BroadcastsInDim ⟨2, ![a, b]⟩ ![0, 1]) (p : Fin a) (q : Fin b) :
    addf (addf (Host.dotGeneral (F := Ideal) d none A Wl) (Host.dotGeneral (F := Ideal) d none X Wr))
        (broadcastInDim ⟨2, ![a, b]⟩ ![0, 1] h₂ (broadcastInDim ⟨2, ![1, b]⟩ ![1] h₁ β)) (ix2 p q)
      = lin (fun k => A (ix2 p k)) (fun k => X (ix2 p k)) (fun k => Wl (ix2 k q)) (fun k => Wr (ix2 k q))
          (β (ix1 q)) := by
  rw [addf_apply, addf_apply, Cert.LibScaledRows.hostProduct_apply d hr hsz hlc hrc hl0 hr1,
    Cert.LibScaledRows.hostProduct_apply d hr hsz hlc hrc hl0 hr1, Cert.LibScaledRows.hostBias_apply]
  rfl

/-- The normalising part of the whole matrix: each per-column vector is broadcast to a row and then down the
    rows; ε is a scalar splat over the variance vector, z a scalar splat over the matrix. -/
theorem hostNorm_apply (Y : FVec Ideal (⟨2, ![a, b]⟩ : Shape) .f32)
    (mu var ga be : FVec Ideal (⟨1, ![b]⟩ : Shape) .f32)
    (h₀ : (⟨0, ![]⟩ : Shape).BroadcastsInDim ⟨1, ![b]⟩ ![])
    (h₁ : (⟨1, ![b]⟩ : Shape).BroadcastsInDim ⟨2, ![1, b]⟩ ![1])
    (h₂ : (⟨2, ![1, b]⟩ : Shape).BroadcastsInDim ⟨2, ![a, b]⟩ ![0, 1])
    (h₅ : (⟨0, ![]⟩ : Shape).BroadcastsInDim ⟨2, ![a, b]⟩ ![])
    (εS zS : FVec Ideal (⟨0, ![]⟩ : Shape) .f32) (p : Fin a) (q : Fin b) :
    maximumf (addf (mulf (mulf (subf Y
              (broadcastInDim ⟨2, ![a, b]⟩ ![0, 1] h₂ (broadcastInDim ⟨2, ![1, b]⟩ ![1] h₁ mu)))
            (broadcastInDim ⟨2, ![a, b]⟩ ![0, 1] h₂ (broadcastInDim ⟨2, ![1, b]⟩ ![1] h₁
              (Host.rsqrt (F := Ideal) (addf var (broadcastInDim ⟨1, ![b]⟩ ![] h₀ εS))))))
          (broadcastInDim ⟨2, ![a, b]⟩ ![0, 1] h₂ (broadcastInDim ⟨2, ![1, b]⟩ ![1] h₁ ga)))
        (broadcastInDim ⟨2, ![a, b]⟩ ![0, 1] h₂ (broadcastInDim ⟨2, ![1, b]⟩ ![1] h₁ be)))
        (broadcastInDim ⟨2, ![a, b]⟩ ![] h₅ zS) (ix2 p q)
      = norm (Y (ix2 p q)) (mu (ix1 q)) (var (ix1 q)) (ga (ix1 q)) (be (ix1 q)) (εS ix0) (zS ix0) := by
  rw [maximumf_apply, addf_apply, mulf_apply, mulf_apply, subf_apply, Cert.LibScaledRows.hostBias_apply,
    Cert.LibScaledRows.hostBias_apply, Cert.LibScaledRows.hostBias_apply, Cert.LibScaledRows.hostBias_apply,
    broadcastInDim_apply ![] h₅ zS (ix2 p q) ix0 (fun ax => ax.elim0)]
  show max ((Y (ix2 p q) - mu (ix1 q)) * Ideal.rsqrt (var (ix1 q) + broadcastInDim ⟨1, ![b]⟩ ![] h₀ εS (ix1 q))
    * ga (ix1 q) + be (ix1 q)) (zS ix0) = _
  rw [broadcastInDim_apply ![] h₀ εS (ix1 q) ix0 (fun ax => ax.elim0)]
  rfl

end Cert.LibDenseLayer

end
-- ==== Proof.Block.lean ====
/-
  What each kernel body computes on one block of rows, entry by entry on the extended reals.

  A body loads a block of rows of the neighbour sums and of the features, the two weight matrices whole, and the
  per-column vectors as one-row blocks. It narrows the matrix operands to bf16 (the identity at the ideal values),
  multiplies into zero accumulators, adds the two products and the bias row, and — in the three normalising
  layers — centres, scales by the reciprocal root of variance plus ε, scales, shifts and clamps below at zero. So
  entry (p, q) of the stored block is  norm (lin …) …  of row p of the two row blocks and column q of everything
  else, with the same ε and the same zero as the host's spelling.
-/
import proofs.«108992_j77670188581370_1_alg».proof.Proof.Gen.KernelIdeal
import proofs.«108992_j77670188581370_1_alg».proof.Proof.Gen.KernelIdeal.Skeleton
import proofs.«108992_j77670188581370_1_alg».proof.Proof.LibDenseLayer

noncomputable section

namespace Cert.KernelIdeal.Block

open Cert.KernelIdeal Cert.KernelIdeal.Gen Idealize.ShloMosaic Idealize.ShloMosaic.ValueIdx Cert.LibDenseLayer

/-! ## Where each matrix-unit product reads its operands -/

theorem dotIn_l0 (i : S5000x128.Idx) (q : dot_S5000x1_S1x128_S5000x128_1_0_0_1_n_n.contr.Idx) :
    (dot_S5000x1_S1x128_S5000x128_1_0_0_1_n_n.lhsIdx i q 0).val = (i 0).val := by
  unfold DotDims.lhsIdx
  rw [dif_neg (show ¬(0 : Fin S5000x1.rank) ∈ dot_S5000x1_S1x128_S5000x128_1_0_0_1_n_n.lhsBatch by decide),
    dif_pos (show (0 : Fin S5000x1.rank) ∈ dot_S5000x1_S1x128_S5000x128_1_0_0_1_n_n.lhsNonContracting by decide)]
  rfl

theorem dotIn_r1 (i : S5000x128.Idx) (q : dot_S5000x1_S1x128_S5000x128_1_0_0_1_n_n.contr.Idx) :
    (dot_S5000x1_S1x128_S5000x128_1_0_0_1_n_n.rhsIdx i q 1).val = (i 1).val := by
  unfold DotDims.rhsIdx
  rw [dif_neg (show ¬(1 : Fin S1x128.rank) ∈ dot_S5000x1_S1x128_S5000x128_1_0_0_1_n_n.rhsBatch by decide),
    dif_pos (show (1 : Fin S1x128.rank) ∈ dot_S5000x1_S1x128_S5000x128_1_0_0_1_n_n.rhsNonContracting by decide)]
  rfl

theorem dotMid_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem dotMid_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

theorem dotOut_l0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide),
    dif_pos (show (0 : Fin S5000x128.rank) ∈ dot_S5000x128_S128x1_S5000x1_1_0_0_1_n_n.lhsNonContracting by decide)]
  rfl

theorem dotOut_r1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide),
    dif_pos (show (1 : Fin S128x1.rank) ∈ dot_S5000x128_S128x1_S5000x1_1_0_0_1_n_n.rhsNonContracting by decide)]
  rfl

/-! ## The stored block at an entry -/

/-- The first layer's block. -/
theorem pay0_apply (A X : Vec Ideal S5000x1 .f32) (Wl Wr B Var Mu Ga Be : Vec Ideal S1x128 .f32)
    (p : Fin 5000) (q : Fin 128) :
    k0_pay1 (F := Ideal) A X Wl Wr B Var Mu Ga Be (ix2 p q)
      = norm (lin (fun k : Fin 1 => A (ix2 p k)) (fun k => X (ix2 p k)) (fun k => Wl (ix2 k q))
            (fun k => Wr (ix2 k q)) (B (ix2 (0 : Fin 1) q)))
          (Mu (ix2 (0 : Fin 1) q)) (Var (ix2 (0 : Fin 1) q)) (Ga (ix2 (0 : Fin 1) q)) (Be (ix2 (0 : Fin 1) q))
          (Ideal.ofBits .f32 0x3727C5AC#32) (Ideal.ofBits .f32 0x00000000#32) := by
  unfold k0_pay1
  simp only [shapeCast_self]
  refine (unitNorm_apply (a := 5000) (b := 128) _ Mu Var Ga Be broadcasts_S1x128_S5000x128
    (Scalar.ofBits .f32 0x3727C5AC#32) (Scalar.ofBits .f32 0x00000000#32) p q).trans ?_
  exact congrArg (fun y => norm y _ _ _ _ _ _)
    (unitLin_apply (a := 5000) (K := 1) (b := 128) dot_S5000x1_S1x128_S5000x128_1_0_0_1_n_n rfl rfl rfl rfl
      dotIn_l0 dotIn_r1 A X Wl Wr B bitsLt_bf16_f32 broadcasts_S1x128_S5000x128 p q)

/-- A middle layer's block (the second layer's body). -/
theorem pay1_apply (A X : Vec Ideal S5000x128 .f32) (Wl Wr : Vec Ideal S128x128 .f32)
    (B Var Mu Ga Be : Vec Ideal S1x128 .f32) (p : Fin 5000) (q : Fin 128) :
    k1_pay1 (F := Ideal) (k1_pay2 A X Wl Wr B Var Mu Ga Be) k1_pay3 (ix2 p q)
      = norm (lin (fun k : Fin 128 => A (ix2 p k)) (fun k => X (ix2 p k)) (fun k => Wl (ix2 k q))
            (fun k => Wr (ix2 k q)) (B (ix2 (0 : Fin 1) q)))
          (Mu (ix2 (0 : Fin 1) q)) (Var (ix2 (0 : Fin 1) q)) (Ga (ix2 (0 : Fin 1) q)) (Be (ix2 (0 : Fin 1) q))
          (Ideal.ofBits .f32 0x3727C5AC#32) (Ideal.ofBits .f32 0x00000000#32) := by
  unfold k1_pay1 k1_pay2 k1_pay3
  simp only [shapeCast_self]
  refine (unitNorm_apply (a := 5000) (b := 128) _ Mu Var Ga Be broadcasts_S1x128_S5000x128
    (Scalar.ofBits .f32 0x3727C5AC#32) (Scalar.ofBits .f32 0x00000000#32) p q).trans ?_
  exact congrArg (fun y => norm y _ _ _ _ _ _)
    (unitLin_apply (a := 5000) (K := 128) (b := 128) dot_S5000x128_S128x128_S5000x128_1_0_0_1_n_n rfl rfl rfl rfl
      dotMid_l0 dotMid_r1 A X Wl Wr B bitsLt_bf16_f32 broadcasts_S1x128_S5000x128 p q)

/-- A middle layer's block (the third layer's body: the same operations). -/
theorem pay2_apply (A X : Vec Ideal S5000x128 .f32) (Wl Wr : Vec Ideal S128x128 .f32)
    (B Var Mu Ga Be : Vec Ideal S1x128 .f32) (p : Fin 5000) (q : Fin 128) :
    k2_pay1 (F := Ideal) (k2_pay2 A X Wl Wr B Var Mu Ga Be) k2_pay3 (ix2 p q)
      = norm (lin (fun k : Fin 128 => A (ix2 p k)) (fun k => X (ix2 p k)) (fun k => Wl (ix2 k q))
            (fun k => Wr (ix2 k q)) (B (ix2 (0 : Fin 1) q)))
          (Mu (ix2 (0 : Fin 1) q)) (Var (ix2 (0 : Fin 1) q)) (Ga (ix2 (0 : Fin 1) q)) (Be (ix2 (0 : Fin 1) q))
          (Ideal.ofBits .f32 0x3727C5AC#32) (Ideal.ofBits .f32 0x00000000#32) := by
  unfold k2_pay1 k2_pay2 k2_pay3
  simp only [shapeCast_self]
  refine (unitNorm_apply (a := 5000) (b := 128) _ Mu Var Ga Be broadcasts_S1x128_S5000x128
    (Scalar.ofBits .f32 0x3727C5AC#32) (Scalar.ofBits .f32 0x00000000#32) p q).trans ?_
  exact congrArg (fun y => norm y _ _ _ _ _ _)
    (unitLin_apply (a := 5000) (K := 128) (b := 128) dot_S5000x128_S128x128_S5000x128_1_0_0_1_n_n rfl rfl rfl rfl
      dotMid_l0 dotMid_r1 A X Wl Wr B bitsLt_bf16_f32 broadcasts_S1x128_S5000x128 p q)

/-- The last layer's block: the linear part alone, one output column. -/
theorem pay3_apply (A X : Vec Ideal S5000x128 .f32) (Wl Wr : Vec Ideal S128x1 .f32) (B : Vec Ideal S1x1 .f32)
    (p : Fin 5000) (q : Fin 1) :
    k3_pay1 (F := Ideal) A X Wl Wr B (ix2 p q)
      = lin (fun k : Fin 128 => A (ix2 p k)) (fun k => X (ix2 p k)) (fun k => Wl (ix2 k q))
          (fun k => Wr (ix2 k q)) (B (ix2 (0 : Fin 1) q)) := by
  unfold k3_pay1
  simp only [shapeCast_self]
  exact unitLin_apply (a := 5000) (K := 128) (b := 1) dot_S5000x128_S128x1_S5000x1_1_0_0_1_n_n rfl rfl rfl rfl
    dotOut_l0 dotOut_r1 A X Wl Wr B bitsLt_bf16_f32 broadcasts_S1x1_S5000x1 p q

end Cert.KernelIdeal.Block

end
-- ==== Proof.HostLayer.lean ====
/-
  The network's layers, in the host's operations, read entry by entry.

  Entry (p, q) of a normalising layer is  norm (lin (row p of the neighbour sums) (row p of the features)
  (column q of Wl) (column q of Wr) (b q)) (μ q) (σ q) (γ q) (β q) ε 0,  and entry (p, q) of the last layer is the
  linear part alone. Each host product contracts the left operand's columns with the right operand's rows and
  carries the output's row to the left operand and the output's column to the right one.
-/
import proofs.«108992_j77670188581370_1_alg».proof.Proof.Net
import proofs.«108992_j77670188581370_1_alg».proof.Proof.LibDenseLayer

noncomputable section

namespace Cert.HostLayer

open Cert.ReferenceIdeal Cert.ReferenceIdeal.Gen Idealize.ShloMosaic Idealize.ShloMosaic.ValueIdx Cert.LibDenseLayer

/-! ## Where each host product reads its operands -/

theorem dotIn_l0 (i : S100000x128.Idx) (q : dot_S100000x1_S1x128_S100000x128_1_0_0_1_n_n.contr.Idx) :
    (dot_S100000x1_S1x128_S100000x128_1_0_0_1_n_n.lhsIdx i q 0).val = (i 0).val := by
  unfold DotDims.lhsIdx
  rw [dif_neg (show ¬(0 : Fin S100000x1.rank) ∈ dot_S100000x1_S1x128_S100000x128_1_0_0_1_n_n.lhsBatch by decide),
    dif_pos (show (0 : Fin S100000x1.rank) ∈ dot_S100000x1_S1x128_S100000x128_1_0_0_1_n_n.lhsNonContracting by decide)]
  rfl

theorem dotIn_r1 (i : S100000x128.Idx) (q : dot_S100000x1_S1x128_S100000x128_1_0_0_1_n_n.contr.Idx) :
    (dot_S100000x1_S1x128_S100000x128_1_0_0_1_n_n.rhsIdx i q 1).val = (i 1).val := by
  unfold DotDims.rhsIdx
  rw [dif_neg (show ¬(1 : Fin S1x128.rank) ∈ dot_S100000x1_S1x128_S100000x128_1_0_0_1_n_n.rhsBatch by decide),
    dif_pos (show (1 : Fin S1x128.rank) ∈ dot_S100000x1_S1x128_S100000x128_1_0_0_1_n_n.rhsNonContracting by decide)]
  rfl

theorem dotMid_l0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

theorem dotMid_r1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

theorem dotOut_l0 (i : S100000x1.Idx) (q : dot_S100000x128_S128x1_S100000x1_1_0_0_1_n_n.contr.Idx) :
    (dot_S100000x128_S128x1_S100000x1_1_0_0_1_n_n.lhsIdx i q 0).val = (i 0).val := by
  unfold DotDims.lhsIdx
  rw [dif_neg (show ¬(0 : Fin S100000x128.rank) ∈ dot_S100000x128_S128x1_S100000x1_1_0_0_1_n_n.lhsBatch by decide),
    dif_pos (show (0 : Fin S100000x128.rank) ∈ dot_S100000x128_S128x1_S100000x1_1_0_0_1_n_n.lhsNonContracting by decide)]
  rfl

theorem dotOut_r1 (i : S100000x1.Idx) (q : dot_S100000x128_S128x1_S100000x1_1_0_0_1_n_n.contr.Idx) :
    (dot_S100000x128_S128x1_S100000x1_1_0_0_1_n_n.rhsIdx i q 1).val = (i 1).val := by
  unfold DotDims.rhsIdx
  rw [dif_neg (show ¬(1 : Fin S128x1.rank) ∈ dot_S100000x128_S128x1_S100000x1_1_0_0_1_n_n.rhsBatch by decide),
    dif_pos (show (1 : Fin S128x1.rank) ∈ dot_S100000x128_S128x1_S100000x1_1_0_0_1_n_n.rhsNonContracting by decide)]
  rfl

/-! ## The layers at an entry -/

/-- The normalisation shared by the three normalising layers, at an entry. -/
theorem normed_apply (y : Net.Arr Ideal S100000x128 .f32) (g be mu var : Net.Arr Ideal S128 .f32)
    (p : Fin 100000) (q : Fin 128) :
    Net.normed (F := Ideal) y g be mu var (ix2 p q)
      = norm (y (ix2 p q)) (mu (ix1 q)) (var (ix1 q)) (g (ix1 q)) (be (ix1 q))
          (Ideal.ofBits .f32 0x3727C5AC#32) (Ideal.ofBits .f32 0x00000000#32) := by
  unfold Net.normed
  exact hostNorm_apply (a := 100000) (b := 128) y mu var g be bcast_S_S128 bcast_S128_S1x128_1
    bcast_S1x128_S100000x128_0_1 bcast_S_S100000x128 (constant S_ .f32 0x3727C5AC#32)
    (constant S_ .f32 0x00000000#32) p q

/-- The first layer at an entry. -/
theorem layer1_apply (a x : Net.Arr Ideal S100000x1 .f32) (wl wr : Net.Arr Ideal S1x128 .f32)
    (b g be mu var : Net.Arr Ideal S128 .f32) (p : Fin 100000) (q : Fin 128) :
    Net.layer1 (F := Ideal) a x wl wr b g be mu var (ix2 p q)
      = norm (lin (fun k : Fin 1 => a (ix2 p k)) (fun k => x (ix2 p k)) (fun k => wl (ix2 k q))
            (fun k => wr (ix2 k q)) (b (ix1 q)))
          (mu (ix1 q)) (var (ix1 q)) (g (ix1 q)) (be (ix1 q))
          (Ideal.ofBits .f32 0x3727C5AC#32) (Ideal.ofBits .f32 0x00000000#32) := by
  unfold Net.layer1
  rw [normed_apply]
  exact congrArg (fun y => norm y _ _ _ _ _ _)
    (hostLin_apply (a := 100000) (K := 1) (b := 128) dot_S100000x1_S1x128_S100000x128_1_0_0_1_n_n rfl rfl rfl rfl
      dotIn_l0 dotIn_r1 a x wl wr b bcast_S128_S1x128_1 bcast_S1x128_S100000x128_0_1 p q)

/-- A middle layer at an entry. -/
theorem layer_apply (a x : Net.Arr Ideal S100000x128 .f32) (wl wr : Net.Arr Ideal S128x128 .f32)
    (b g be mu var : Net.Arr Ideal S128 .f32) (p : Fin 100000) (q : Fin 128) :
    Net.layer (F := Ideal) a x wl wr b g be mu var (ix2 p q)
      = norm (lin (fun k : Fin 128 => a (ix2 p k)) (fun k => x (ix2 p k)) (fun k => wl (ix2 k q))
            (fun k => wr (ix2 k q)) (b (ix1 q)))
          (mu (ix1 q)) (var (ix1 q)) (g (ix1 q)) (be (ix1 q))
          (Ideal.ofBits .f32 0x3727C5AC#32) (Ideal.ofBits .f32 0x00000000#32) := by
  unfold Net.layer
  rw [normed_apply]
  exact congrArg (fun y => norm y _ _ _ _ _ _)
    (hostLin_apply (a := 100000) (K := 128) (b := 128) dot_S100000x128_S128x128_S100000x128_1_0_0_1_n_n rfl rfl rfl rfl
      dotMid_l0 dotMid_r1 a x wl wr b bcast_S128_S1x128_1 bcast_S1x128_S100000x128_0_1 p q)

/-- The last layer at an entry. -/
theorem layerOut_apply (a x : Net.Arr Ideal S100000x128 .f32) (wl wr : Net.Arr Ideal S128x1 .f32)
    (b : Net.Arr Ideal S1 .f32) (p : Fin 100000) (q : Fin 1) :
    Net.layerOut (F := Ideal) a x wl wr b (ix2 p q)
      = lin (fun k : Fin 128 => a (ix2 p k)) (fun k => x (ix2 p k)) (fun k => wl (ix2 k q))
          (fun k => wr (ix2 k q)) (b (ix1 q)) := by
  unfold Net.layerOut
  exact hostLin_apply (a := 100000) (K := 128) (b := 1) dot_S100000x128_S128x1_S100000x1_1_0_0_1_n_n rfl rfl rfl rfl
    dotOut_l0 dotOut_r1 a x wl wr b bcast_S1_S1x1_1 bcast_S1x1_S100000x1_0_1 p q

end Cert.HostLayer

end
-- ==== Proof.Point.lean ====
/-
  One entry of a stored block against one entry of the host's layer.

  A block of a kernel body holds 5000 consecutive rows of the node arrays. If row p of the two row blocks is row r
  of the whole neighbour-sum and feature arrays, the weight blocks are the whole weight matrices, and each one-row
  block holds its per-column vector, then entry (p, q) of the stored block is entry (r, q) of the host's layer:
  both are the same expression  norm (lin …) …  (or  lin …  for the last layer) of the same entries.
-/
import proofs.«108992_j77670188581370_1_alg».proof.Proof.Block
import proofs.«108992_j77670188581370_1_alg».proof.Proof.HostLayer

noncomputable section

namespace Cert.Point

open Idealize.ShloMosaic Idealize.ShloMosaic.ValueIdx Cert.LibDenseLayer

/-- The first layer. -/
theorem first (x0 x1 : Vec Ideal Cert.KernelIdeal.S5000x1 .f32) (x2 x3 x4 x5 x6 x7 x8 : Vec Ideal Cert.KernelIdeal.S1x128 .f32)
    (A X : Net.Arr Ideal Cert.ReferenceIdeal.S100000x1 .f32) (Wl Wr : Net.Arr Ideal Cert.ReferenceIdeal.S1x128 .f32)
    (b g be mu var : Net.Arr Ideal Cert.ReferenceIdeal.S128 .f32) (p : Fin 5000) (r : Fin 100000) (q : Fin 128)
    (h0 : ∀ k : Fin 1, x0 (ix2 p k) = A (ix2 r k)) (h1 : ∀ k : Fin 1, x1 (ix2 p k) = X (ix2 r k))
    (h2 : ∀ k : Fin 1, x2 (ix2 k q) = Wl (ix2 k q)) (h3 : ∀ k : Fin 1, x3 (ix2 k q) = Wr (ix2 k q))
    (h4 : x4 (ix2 (0 : Fin 1) q) = b (ix1 q)) (h5 : x5 (ix2 (0 : Fin 1) q) = g (ix1 q))
    (h6 : x6 (ix2 (0 : Fin 1) q) = be (ix1 q)) (h7 : x7 (ix2 (0 : Fin 1) q) = mu (ix1 q))
    (h8 : x8 (ix2 (0 : Fin 1) q) = var (ix1 q)) :
    Cert.KernelIdeal.Gen.k0_pay1 (F := Ideal) x0 x1 x2 x3 x4 x8 x7 x5 x6 (ix2 p q)
      = Net.layer1 (F := Ideal) A X Wl Wr b g be mu var (ix2 r q) := by
  rw [Cert.KernelIdeal.Block.pay0_apply, Cert.HostLayer.layer1_apply]
  simp only [h0, h1, h2, h3, h4, h5, h6, h7, h8]

/-- The second layer. -/
theorem second (x0 x1 : Vec Ideal Cert.KernelIdeal.S5000x128 .f32) (x2 x3 : Vec Ideal Cert.KernelIdeal.S128x128 .f32)
    (x4 x5 x6 x7 x8 : Vec Ideal Cert.KernelIdeal.S1x128 .f32)
    (A X : Net.Arr Ideal Cert.ReferenceIdeal.S100000x128 .f32) (Wl Wr : Net.Arr Ideal Cert.ReferenceIdeal.S128x128 .f32)
    (b g be mu var : Net.Arr Ideal Cert.ReferenceIdeal.S128 .f32) (p : Fin 5000) (r : Fin 100000) (q : Fin 128)
    (h0 : ∀ k : Fin 128, x0 (ix2 p k) = A (ix2 r k)) (h1 : ∀ k : Fin 128, x1 (ix2 p k) = X (ix2 r k))
    (h2 : ∀ k : Fin 128, x2 (ix2 k q) = Wl (ix2 k q)) (h3 : ∀ k : Fin 128, x3 (ix2 k q) = Wr (ix2 k q))
    (h4 : x4 (ix2 (0 : Fin 1) q) = b (ix1 q)) (h5 : x5 (ix2 (0 : Fin 1) q) = g (ix1 q))
    (h6 : x6 (ix2 (0 : Fin 1) q) = be (ix1 q)) (h7 : x7 (ix2 (0 : Fin 1) q) = mu (ix1 q))
    (h8 : x8 (ix2 (0 : Fin 1) q) = var (ix1 q)) :
    Cert.KernelIdeal.Gen.k1_pay1 (F := Ideal) (Cert.KernelIdeal.Gen.k1_pay2 x0 x1 x2 x3 x4 x8 x7 x5 x6)
        Cert.KernelIdeal.Gen.k1_pay3 (ix2 p q)
      = Net.layer (F := Ideal) A X Wl Wr b g be mu var (ix2 r q) := by
  rw [Cert.KernelIdeal.Block.pay1_apply, Cert.HostLayer.layer_apply]
  simp only [h0, h1, h2, h3, h4, h5, h6, h7, h8]

/-- The third layer. -/
theorem third (x0 x1 : Vec Ideal Cert.KernelIdeal.S5000x128 .f32) (x2 x3 : Vec Ideal Cert.KernelIdeal.S128x128 .f32)
    (x4 x5 x6 x7 x8 : Vec Ideal Cert.KernelIdeal.S1x128 .f32)
    (A X : Net.Arr Ideal Cert.ReferenceIdeal.S100000x128 .f32) (Wl Wr : Net.Arr Ideal Cert.ReferenceIdeal.S128x128 .f32)
    (b g be mu var : Net.Arr Ideal Cert.ReferenceIdeal.S128 .f32) (p : Fin 5000) (r : Fin 100000) (q : Fin 128)
    (h0 : ∀ k : Fin 128, x0 (ix2 p k) = A (ix2 r k)) (h1 : ∀ k : Fin 128, x1 (ix2 p k) = X (ix2 r k))
    (h2 : ∀ k : Fin 128, x2 (ix2 k q) = Wl (ix2 k q)) (h3 : ∀ k : Fin 128, x3 (ix2 k q) = Wr (ix2 k q))
    (h4 : x4 (ix2 (0 : Fin 1) q) = b (ix1 q)) (h5 : x5 (ix2 (0 : Fin 1) q) = g (ix1 q))
    (h6 : x6 (ix2 (0 : Fin 1) q) = be (ix1 q)) (h7 : x7 (ix2 (0 : Fin 1) q) = mu (ix1 q))
    (h8 : x8 (ix2 (0 : Fin 1) q) = var (ix1 q)) :
    Cert.KernelIdeal.Gen.k2_pay1 (F := Ideal) (Cert.KernelIdeal.Gen.k2_pay2 x0 x1 x2 x3 x4 x8 x7 x5 x6)
        Cert.KernelIdeal.Gen.k2_pay3 (ix2 p q)
      = Net.layer (F := Ideal) A X Wl Wr b g be mu var (ix2 r q) := by
  rw [Cert.KernelIdeal.Block.pay2_apply, Cert.HostLayer.layer_apply]
  simp only [h0, h1, h2, h3, h4, h5, h6, h7, h8]

/-- The last layer. -/
theorem last (x0 x1 : Vec Ideal Cert.KernelIdeal.S5000x128 .f32) (x2 x3 : Vec Ideal Cert.KernelIdeal.S128x1 .f32)
    (x4 : Vec Ideal Cert.KernelIdeal.S1x1 .f32)
    (A X : Net.Arr Ideal Cert.ReferenceIdeal.S100000x128 .f32) (Wl Wr : Net.Arr Ideal Cert.ReferenceIdeal.S128x1 .f32)
    (b : Net.Arr Ideal Cert.ReferenceIdeal.S1 .f32) (p : Fin 5000) (r : Fin 100000) (q : Fin 1)
    (h0 : ∀ k : Fin 128, x0 (ix2 p k) = A (ix2 r k)) (h1 : ∀ k : Fin 128, x1 (ix2 p k) = X (ix2 r k))
    (h2 : ∀ k : Fin 128, x2 (ix2 k q) = Wl (ix2 k q)) (h3 : ∀ k : Fin 128, x3 (ix2 k q) = Wr (ix2 k q))
    (h4 : x4 (ix2 (0 : Fin 1) q) = b (ix1 q)) :
    Cert.KernelIdeal.Gen.k3_pay1 (F := Ideal) x0 x1 x2 x3 x4 (ix2 p q)
      = Net.layerOut (F := Ideal) A X Wl Wr b (ix2 r q) := by
  rw [Cert.KernelIdeal.Block.pay3_apply, Cert.HostLayer.layerOut_apply]
  simp only [h0, h1, h2, h3, h4]

end Cert.Point

end
-- ==== Proof.Region0.lean ====
/-
  The first layer's region: what its output array holds when the region ends.

  The region visits 20 grid points; point t stages rows t · 5000 … t · 5000 + 4999 of the neighbour sums and of the
  features, the weight matrices and the per-column rows whole, and writes back the same rows of the output. Entry by
  entry the written block is the host's layer of the arrays as the region finds them, and the 20 blocks tile the
  output's rows, so the output array ends as that layer of the whole arrays.
-/
import proofs.«108992_j77670188581370_1_alg».proof.Proof.Gen.KernelIdeal.Frame
import proofs.«108992_j77670188581370_1_alg».proof.Proof.Point

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row windows and the output move one block of rows per point and
    stay in column block 0; every other window stays at block (0, 0). -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_9.index t (0 : Fin 2) = t.val
    ∧ win0_9.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0 :=
  (by decide +kernel : ∀ t : Fin grid0.N, _)

/-- Every block of rows of the output is some point's. -/
theorem idx_onto : ∀ q0 : Fin 20, ∃ t : Fin cfg0.N, win0_9.index t (0 : Fin 2) = q0.val :=
  (by decide +kernel : ∀ q0 : Fin 20, ∃ t : Fin grid0.N, win0_9.index t (0 : Fin 2) = q0.val)

/-- Row p of point t's blocks, as a row of the whole arrays. -/
def row (t : Fin cfg0.N) (p : Fin 5000) : Fin 100000 :=
  ⟨t.val * 5000 + p.val, by have h := t.isLt; have h2 : cfg0.N = 20 := N_0; have h3 := p.isLt; omega⟩

/-- Row p of window 0's block at point t is row t · 5000 + p of its array. -/
theorem rows0 (c : Dev nD) (t : Fin cfg0.N) (p : Fin 5000) (k : Fin 1) :
    iblk0 V c 0 t (ix2 p k) = V c main_v13 (ix2 (row t p) k) := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_v13 (((cfg0.win 0).blk t).view.emb (ix2 p k)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 1 + 1 * k.val = k.val; omega

/-- Row p of window 1's block at point t is row t · 5000 + p of its array. -/
theorem rows1 (c : Dev nD) (t : Fin cfg0.N) (p : Fin 5000) (k : Fin 1) :
    iblk0 V c 1 t (ix2 p k) = V c main_arg0 (ix2 (row t p) k) := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_arg0 (((cfg0.win 1).blk t).view.emb (ix2 p k)) = _
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 1 + 1 * k.val = k.val; omega

/-- Window 2's block is its whole array at every point. -/
theorem whole2 (c : Dev nD) (t : Fin cfg0.N) (y : S1x128.Idx) : iblk0 V c 2 t y = V c main_arg2 y := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_arg2 (((cfg0.win 2).blk t).view.emb y) = _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Window 3's block is its whole array at every point. -/
theorem whole3 (c : Dev nD) (t : Fin cfg0.N) (y : S1x128.Idx) : iblk0 V c 3 t y = V c main_arg3 y := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_arg3 (((cfg0.win 3).blk t).view.emb y) = _
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Window 4's block is its whole array at every point. -/
theorem whole4 (c : Dev nD) (t : Fin cfg0.N) (y : S1x128.Idx) : iblk0 V c 4 t y = V c main_v14 y := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_v14 (((cfg0.win 4).blk t).view.emb y) = _
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5's block is its whole array at every point. -/
theorem whole5 (c : Dev nD) (t : Fin cfg0.N) (y : S1x128.Idx) : iblk0 V c 5 t y = V c main_v15 y := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_v15 (((cfg0.win 5).blk t).view.emb y) = _
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Window 6's block is its whole array at every point. -/
theorem whole6 (c : Dev nD) (t : Fin cfg0.N) (y : S1x128.Idx) : iblk0 V c 6 t y = V c main_v16 y := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_v16 (((cfg0.win 6).blk t).view.emb y) = _
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7's block is its whole array at every point. -/
theorem whole7 (c : Dev nD) (t : Fin cfg0.N) (y : S1x128.Idx) : iblk0 V c 7 t y = V c main_v17 y := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_v17 (((cfg0.win 7).blk t).view.emb y) = _
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- Window 8's block is its whole array at every point. -/
theorem whole8 (c : Dev nD) (t : Fin cfg0.N) (y : S1x128.Idx) : iblk0 V c 8 t y = V c main_v18 y := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_v18 (((cfg0.win 8).blk t).view.emb y) = _
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- Entry (p, q) of point t's output block sits at row t · 5000 + p, column q of the output array. -/
theorem embOut (t : Fin cfg0.N) (p : Fin 5000) (q : Fin 128) :
    ((cfg0.win 9).blk t).view.emb (ix2 p q) = ix2 (row t p) q := by
  obtain ⟨e0_0, e0_1, e1_0, e1_1, e9_0, e9_1, e2_0, e2_1, e3_0, e3_1, e4_0, e4_1, e5_0, e5_1, e6_0, e6_1, e7_0, e7_1, e8_0, e8_1⟩ := idx_facts t
  funext a; apply Fin.ext
  match a with
  | ⟨0, _⟩ => show win0_9.index t (0 : Fin 2) * 5000 + 1 * p.val = t.val * 5000 + p.val; omega
  | ⟨1, _⟩ => show win0_9.index t (1 : Fin 2) * 128 + 1 * q.val = q.val; omega

/-- What point t writes back is block t of the host's layer of the arrays as the region finds them. -/
theorem flushed_eq (c : Dev nD) (t : Fin cfg0.N) (b g be mu var : Net.Arr Ideal Cert.ReferenceIdeal.S128 .f32)
    (h4 : ∀ q : Fin 128, V c main_v14 (ix2 (0 : Fin 1) q) = b (ix1 q))
    (h5 : ∀ q : Fin 128, V c main_v15 (ix2 (0 : Fin 1) q) = g (ix1 q))
    (h6 : ∀ q : Fin 128, V c main_v16 (ix2 (0 : Fin 1) q) = be (ix1 q))
    (h7 : ∀ q : Fin 128, V c main_v17 (ix2 (0 : Fin 1) q) = mu (ix1 q))
    (h8 : ∀ q : Fin 128, V c main_v18 (ix2 (0 : Fin 1) q) = var (ix1 q)) :
    (dat0 V c).flushed 9 t
      = ((cfg0.win 9).blk t).view.read (Elt Ideal) (Net.layer1 (F := Ideal) (V c main_v13) (V c main_arg0) (V c main_arg2) (V c main_arg3) b g be mu var) := by
  show (cfg0.win 9).cut (grid0.coords t) ((dat0 V c).after 9 t) = _
  rw [after0_9]
  unfold out0_9
  rw [View.canon_unit_zero hz]
  simp only [View.ld_unit_zero (S := S5000x1) hz, View.ld_unit_zero (S := S1x128) hz]
  funext y
  obtain ⟨p, q, rfl⟩ : ∃ (p : Fin 5000) (q : Fin 128), y = ix2 p q := ⟨y 0, y 1, eq_ix2 y⟩
  show _ = Net.layer1 (F := Ideal) (V c main_v13) (V c main_arg0) (V c main_arg2) (V c main_arg3) b g be mu var
    (((cfg0.win 9).blk t).view.emb (ix2 p q))
  rw [embOut t p q]
  exact Cert.Point.first _ _ _ _ _ _ _ _ _ _ _ _ _ b g be mu var p (row t p) q
    (fun k => rows0 V c t p k) (fun k => rows1 V c t p k) (fun k => whole2 V c t (ix2 k q)) (fun k => whole3 V c t (ix2 k q))
    ((whole4 V c t (ix2 (0 : Fin 1) q)).trans (h4 q)) ((whole5 V c t (ix2 (0 : Fin 1) q)).trans (h5 q)) ((whole6 V c t (ix2 (0 : Fin 1) q)).trans (h6 q)) ((whole7 V c t (ix2 (0 : Fin 1) q)).trans (h7 q)) ((whole8 V c t (ix2 (0 : Fin 1) q)).trans (h8 q))

/-- An index of the output array is in point t's block iff each coordinate is in the block's range. -/
theorem mem_blk (t : Fin cfg0.N) (i : S100000x128.Idx) :
    i ∈ ((cfg0.win 9).blk t).view.set ↔ ∀ a : Fin 2, win0_9.index t a * S5000x128.size a ≤ (i a).val
      ∧ (i a).val < win0_9.index t a * S5000x128.size a + S5000x128.size a := by
  show i ∈ ((View.whole main_v19).slice (win0_9.rect t)).set ↔ _
  rw [View.set_slice_whole, Rect.mem_set_unit]
  exact Iff.rfl

/-- Every index of the output array is in the block of the point its row falls in. -/
theorem cover (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  obtain ⟨t, ht⟩ := idx_onto ⟨(i 0).val / 5000, by omega⟩
  obtain ⟨e0_0, e0_1, e1_0, e1_1, e9_0, e9_1, e2_0, e2_1, e3_0, e3_1, e4_0, e4_1, e5_0, e5_1, e6_0, e6_1, e7_0, e7_1, e8_0, e8_1⟩ := idx_facts t
  have ht' : win0_9.index t (0 : Fin 2) = (i 0).val / 5000 := ht
  refine ⟨t, flush0_9 t, ?_⟩
  rw [mem_blk]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 128 ≤ (i 1).val ∧ (i 1).val < win0_9.index t (1 : Fin 2) * 128 + 128; omega

/-- The output array when the region ends: the host's layer of the arrays as the region finds them. -/
theorem final (c : Dev nD) (b g be mu var : Net.Arr Ideal Cert.ReferenceIdeal.S128 .f32)
    (h4 : ∀ q : Fin 128, V c main_v14 (ix2 (0 : Fin 1) q) = b (ix1 q))
    (h5 : ∀ q : Fin 128, V c main_v15 (ix2 (0 : Fin 1) q) = g (ix1 q))
    (h6 : ∀ q : Fin 128, V c main_v16 (ix2 (0 : Fin 1) q) = be (ix1 q))
    (h7 : ∀ q : Fin 128, V c main_v17 (ix2 (0 : Fin 1) q) = mu (ix1 q))
    (h8 : ∀ q : Fin 128, V c main_v18 (ix2 (0 : Fin 1) q) = var (ix1 q)) :
    (dat0 V c).arrAt 9 cfg0.N = Net.layer1 (F := Ideal) (V c main_v13) (V c main_arg0) (V c main_arg2) (V c main_arg3) b g be mu var :=
  (dat0 V c).arrAt_eq_of_cover 9 _ (fun t _ => flushed_eq V c t b g be mu var h4 h5 h6 h7 h8) (cover)

end Cert.KernelIdeal.Region0

end
-- ==== Proof.Region1.lean ====
/-
  The second layer's region: what its output array holds when the region ends.

  The region visits 20 grid points; point t stages rows t · 5000 … t · 5000 + 4999 of the neighbour sums and of the
  features, the weight matrices and the per-column rows whole, and writes back the same rows of the output. Entry by
  entry the written block is the host's layer of the arrays as the region finds them, and the 20 blocks tile the
  output's rows, so the output array ends as that layer of the whole arrays.
-/
import proofs.«108992_j77670188581370_1_alg».proof.Proof.Gen.KernelIdeal.Frame
import proofs.«108992_j77670188581370_1_alg».proof.Proof.Point

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row windows and the output move one block of rows per point and
    stay in column block 0; every other window stays at block (0, 0). -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_9.index t (0 : Fin 2) = t.val
    ∧ win1_9.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0 :=
  (by decide +kernel : ∀ t : Fin grid1.N, _)

/-- Every block of rows of the output is some point's. -/
theorem idx_onto : ∀ q0 : Fin 20, ∃ t : Fin cfg1.N, win1_9.index t (0 : Fin 2) = q0.val :=
  (by decide +kernel : ∀ q0 : Fin 20, ∃ t : Fin grid1.N, win1_9.index t (0 : Fin 2) = q0.val)

/-- Row p of point t's blocks, as a row of the whole arrays. -/
def row (t : Fin cfg1.N) (p : Fin 5000) : Fin 100000 :=
  ⟨t.val * 5000 + p.val, by have h := t.isLt; have h2 : cfg1.N = 20 := N_1; have h3 := p.isLt; omega⟩

/-- Row p of window 0's block at point t is row t · 5000 + p of its array. -/
theorem rows0 (c : Dev nD) (t : Fin cfg1.N) (p : Fin 5000) (k : Fin 128) :
    iblk1 V c 0 t (ix2 p k) = V c main_v29 (ix2 (row t p) k) := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_v29 (((cfg1.win 0).blk t).view.emb (ix2 p k)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- Row p of window 1's block at point t is row t · 5000 + p of its array. -/
theorem rows1 (c : Dev nD) (t : Fin cfg1.N) (p : Fin 5000) (k : Fin 128) :
    iblk1 V c 1 t (ix2 p k) = V c main_v19 (ix2 (row t p) k) := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_v19 (((cfg1.win 1).blk t).view.emb (ix2 p k)) = _
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

/-- Window 2's block is its whole array at every point. -/
theorem whole2 (c : Dev nD) (t : Fin cfg1.N) (y : S128x128.Idx) : iblk1 V c 2 t y = V c main_arg5 y := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_arg5 (((cfg1.win 2).blk t).view.emb y) = _
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Window 3's block is its whole array at every point. -/
theorem whole3 (c : Dev nD) (t : Fin cfg1.N) (y : S128x128.Idx) : iblk1 V c 3 t y = V c main_arg6 y := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_arg6 (((cfg1.win 3).blk t).view.emb y) = _
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- Window 4's block is its whole array at every point. -/
theorem whole4 (c : Dev nD) (t : Fin cfg1.N) (y : S1x128.Idx) : iblk1 V c 4 t y = V c main_v30 y := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_v30 (((cfg1.win 4).blk t).view.emb y) = _
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Window 5's block is its whole array at every point. -/
theorem whole5 (c : Dev nD) (t : Fin cfg1.N) (y : S1x128.Idx) : iblk1 V c 5 t y = V c main_v31 y := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_v31 (((cfg1.win 5).blk t).view.emb y) = _
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Window 6's block is its whole array at every point. -/
theorem whole6 (c : Dev nD) (t : Fin cfg1.N) (y : S1x128.Idx) : iblk1 V c 6 t y = V c main_v32 y := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_v32 (((cfg1.win 6).blk t).view.emb y) = _
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Window 7's block is its whole array at every point. -/
theorem whole7 (c : Dev nD) (t : Fin cfg1.N) (y : S1x128.Idx) : iblk1 V c 7 t y = V c main_v33 y := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_v33 (((cfg1.win 7).blk t).view.emb y) = _
  refine congrArg _ (funext fun a => Fin.ext ?_)
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- Window 8's block is its whole array at every point. -/
theorem whole8 (c : Dev nD) (t : Fin cfg1.N) (y : S1x128.Idx) : iblk1 V c 8 t y = V c main_v34 y := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_v34 (((cfg1.win 8).blk t).view.emb y) = _
  refine congrArg _ (funext fun a => Fin.ext ?_)
  match a with
  | ⟨0, _⟩ => show win1_8.index t (0 : Fin 2) * 1 + 1 * (y 0).val = (y 0).val; omega
  | ⟨1, _⟩ => show win1_8.index t (1 : Fin 2) * 128 + 1 * (y 1).val = (y 1).val; omega

/-- Entry (p, q) of point t's output block sits at row t · 5000 + p, column q of the output array. -/
theorem embOut (t : Fin cfg1.N) (p : Fin 5000) (q : Fin 128) :
    ((cfg1.win 9).blk t).view.emb (ix2 p q) = ix2 (row t p) q := by
  obtain ⟨e0_0, e0_1, e1_0, e1_1, e9_0, e9_1, e2_0, e2_1, e3_0, e3_1, e4_0, e4_1, e5_0, e5_1, e6_0, e6_1, e7_0, e7_1, e8_0, e8_1⟩ := idx_facts t
  funext a; apply Fin.ext
  match a with
  | ⟨0, _⟩ => show win1_9.index t (0 : Fin 2) * 5000 + 1 * p.val = t.val * 5000 + p.val; omega
  | ⟨1, _⟩ => show win1_9.index t (1 : Fin 2) * 128 + 1 * q.val = q.val; omega

/-- What point t writes back is block t of the host's layer of the arrays as the region finds them. -/
theorem flushed_eq (c : Dev nD) (t : Fin cfg1.N) (b g be mu var : Net.Arr Ideal Cert.ReferenceIdeal.S128 .f32)
    (h4 : ∀ q : Fin 128, V c main_v30 (ix2 (0 : Fin 1) q) = b (ix1 q))
    (h5 : ∀ q : Fin 128, V c main_v31 (ix2 (0 : Fin 1) q) = g (ix1 q))
    (h6 : ∀ q : Fin 128, V c main_v32 (ix2 (0 : Fin 1) q) = be (ix1 q))
    (h7 : ∀ q : Fin 128, V c main_v33 (ix2 (0 : Fin 1) q) = mu (ix1 q))
    (h8 : ∀ q : Fin 128, V c main_v34 (ix2 (0 : Fin 1) q) = var (ix1 q)) :
    (dat1 V c).flushed 9 t
      = ((cfg1.win 9).blk t).view.read (Elt Ideal) (Net.layer (F := Ideal) (V c main_v29) (V c main_v19) (V c main_arg5) (V c main_arg6) b g be mu var) := by
  show (cfg1.win 9).cut (grid1.coords t) ((dat1 V c).after 9 t) = _
  rw [after1_9]
  unfold out1_9
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  show _ = Net.layer (F := Ideal) (V c main_v29) (V c main_v19) (V c main_arg5) (V c main_arg6) b g be mu var
    (((cfg1.win 9).blk t).view.emb (ix2 p q))
  rw [embOut t p q]
  exact Cert.Point.second _ _ _ _ _ _ _ _ _ _ _ _ _ b g be mu var p (row t p) q
    (fun k => rows0 V c t p k) (fun k => rows1 V c t p k) (fun k => whole2 V c t (ix2 k q)) (fun k => whole3 V c t (ix2 k q))
    ((whole4 V c t (ix2 (0 : Fin 1) q)).trans (h4 q)) ((whole5 V c t (ix2 (0 : Fin 1) q)).trans (h5 q)) ((whole6 V c t (ix2 (0 : Fin 1) q)).trans (h6 q)) ((whole7 V c t (ix2 (0 : Fin 1) q)).trans (h7 q)) ((whole8 V c t (ix2 (0 : Fin 1) q)).trans (h8 q))

/-- An index of the output array is in point t's block iff each coordinate is in the block's range. -/
theorem mem_blk (t : Fin cfg1.N) (i : S100000x128.Idx) :
    i ∈ ((cfg1.win 9).blk t).view.set ↔ ∀ a : Fin 2, win1_9.index t a * S5000x128.size a ≤ (i a).val
      ∧ (i a).val < win1_9.index t a * S5000x128.size a + S5000x128.size a := by
  show i ∈ ((View.whole main_v35).slice (win1_9.rect t)).set ↔ _
  rw [View.set_slice_whole, Rect.mem_set_unit]
  exact Iff.rfl

/-- Every index of the output array is in the block of the point its row falls in. -/
theorem cover (i : S100000x128.Idx) :
    ∃ t : Fin cfg1.N, (cfg1.win 9).flush t = true ∧ i ∈ ((cfg1.win 9).blk t).view.set := by
  have hi0 : (i 0).val < 100000 := (i 0).isLt
  have hi1 : (i 1).val < 128 := (i 1).isLt
  obtain ⟨t, ht⟩ := idx_onto ⟨(i 0).val / 5000, by omega⟩
  obtain ⟨e0_0, e0_1, e1_0, e1_1, e9_0, e9_1, e2_0, e2_1, e3_0, e3_1, e4_0, e4_1, e5_0, e5_1, e6_0, e6_1, e7_0, e7_1, e8_0, e8_1⟩ := idx_facts t
  have ht' : win1_9.index t (0 : Fin 2) = (i 0).val / 5000 := ht
  refine ⟨t, flush1_9 t, ?_⟩
  rw [mem_blk]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 128 ≤ (i 1).val ∧ (i 1).val < win1_9.index t (1 : Fin 2) * 128 + 128; omega

/-- The output array when the region ends: the host's layer of the arrays as the region finds them. -/
theorem final (c : Dev nD) (b g be mu var : Net.Arr Ideal Cert.ReferenceIdeal.S128 .f32)
    (h4 : ∀ q : Fin 128, V c main_v30 (ix2 (0 : Fin 1) q) = b (ix1 q))
    (h5 : ∀ q : Fin 128, V c main_v31 (ix2 (0 : Fin 1) q) = g (ix1 q))
    (h6 : ∀ q : Fin 128, V c main_v32 (ix2 (0 : Fin 1) q) = be (ix1 q))
    (h7 : ∀ q : Fin 128, V c main_v33 (ix2 (0 : Fin 1) q) = mu (ix1 q))
    (h8 : ∀ q : Fin 128, V c main_v34 (ix2 (0 : Fin 1) q) = var (ix1 q)) :
    (dat1 V c).arrAt 9 cfg1.N = Net.layer (F := Ideal) (V c main_v29) (V c main_v19) (V c main_arg5) (V c main_arg6) b g be mu var :=
  (dat1 V c).arrAt_eq_of_cover 9 _ (fun t _ => flushed_eq V c t b g be mu var h4 h5 h6 h7 h8) (cover)

end Cert.KernelIdeal.Region1

end
-- ==== Proof.Region2.lean ====
/-
  The third layer's region: what its output array holds when the region ends.

  The region visits 20 grid points; point t stages rows t · 5000 … t · 5000 + 4999 of the neighbour sums and of the
  features, the weight matrices and the per-column rows whole, and writes back the same rows of the output. Entry by
  entry the written block is the host's layer of the arrays as the region finds them, and the 20 blocks tile the
  output's rows, so the output array ends as that layer of the whole arrays.
-/
import proofs.«108992_j77670188581370_1_alg».proof.Proof.Gen.KernelIdeal.Frame
import proofs.«108992_j77670188581370_1_alg».proof.Proof.Point

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row windows and the output move one block of rows per point and
    stay in column block 0; every other window stays at block (0, 0). -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_9.index t (0 : Fin 2) = t.val
    ∧ win2_9.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0 :=
  (by decide +kernel : ∀ t : Fin grid2.N, _)

/-- Every block of rows of the output is some point's. -/
theorem idx_onto : ∀ q0 : Fin 20, ∃ t : Fin cfg2.N, win2_9.index t (0 : Fin 2) = q0.val :=
  (by decide +kernel : ∀ q0 : Fin 20, ∃ t : Fin grid2.N, win2_9.index t (0 : Fin 2) = q0.val)

/-- Row p of point t's blocks, as a row of the whole arrays. -/
def row (t : Fin cfg2.N) (p : Fin 5000) : Fin 100000 :=
  ⟨t.val * 5000 + p.val, by have h := t.isLt; have h2 : cfg2.N = 20 := N_2; have h3 := p.isLt; omega⟩

/-- Row p of window 0's block at point t is row t · 5000 + p of its array. -/
theorem rows0 (c : Dev nD) (t : Fin cfg2.N) (p : Fin 5000) (k : Fin 128) :
    iblk2 V c 0 t (ix2 p k) = V c main_v45 (ix2 (row t p) k) := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_v45 (((cfg2.win 0).blk t).view.emb (ix2 p k)) = _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

/-- Row p of window 1's block at point t is row t · 5000 + p of its array. -/
theorem rows1 (c : Dev nD) (t : Fin cfg2.N) (p : Fin 5000) (k : Fin 128) :
    iblk2 V c 1 t (ix2 p k) = V c main_v35 (ix2 (row t p) k) := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_v35 (((cfg2.win 1).blk t).view.emb (ix2 p k)) = _
  refine congrArg _ (funext fun a => Fin.ext ?_)
  match a with
  | ⟨0, _⟩ => show win2_1.index t (0 : Fin 2) * 5000 + 1 * p.val = t.val * 5000 + p.val; omega
  | ⟨1, _⟩ => show win2_1.index t (1 : Fin 2) * 128 + 1 * k.val = k.val; omega

/-- Window 2's block is its whole array at every point. -/
theorem whole2 (c : Dev nD) (t : Fin cfg2.N) (y : S128x128.Idx) : iblk2 V c 2 t y = V c main_arg8 y := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_arg8 (((cfg2.win 2).blk t).view.emb y) = _
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- Window 3's block is its whole array at every point. -/
theorem whole3 (c : Dev nD) (t : Fin cfg2.N) (y : S128x128.Idx) : iblk2 V c 3 t y = V c main_arg9 y := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_arg9 (((cfg2.win 3).blk t).view.emb y) = _
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Window 4's block is its whole array at every point. -/
theorem whole4 (c : Dev nD) (t : Fin cfg2.N) (y : S1x128.Idx) : iblk2 V c 4 t y = V c main_v46 y := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_v46 (((cfg2.win 4).blk t).view.emb y) = _
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Window 5's block is its whole array at every point. -/
theorem whole5 (c : Dev nD) (t : Fin cfg2.N) (y : S1x128.Idx) : iblk2 V c 5 t y = V c main_v47 y := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_v47 (((cfg2.win 5).blk t).view.emb y) = _
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- Window 6's block is its whole array at every point. -/
theorem whole6 (c : Dev nD) (t : Fin cfg2.N) (y : S1x128.Idx) : iblk2 V c 6 t y = V c main_v48 y := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_v48 (((cfg2.win 6).blk t).view.emb y) = _
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- Window 7's block is its whole array at every point. -/
theorem whole7 (c : Dev nD) (t : Fin cfg2.N) (y : S1x128.Idx) : iblk2 V c 7 t y = V c main_v49 y := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_v49 (((cfg2.win 7).blk t).view.emb y) = _
  refine congrArg _ (funext fun a => Fin.ext ?_)
  match a with
  | ⟨0, _⟩ => show win2_7.index t (0 : Fin 2) * 1 + 1 * (y 0).val = (y 0).val; omega
  | ⟨1, _⟩ => show win2_7.index t (1 : Fin 2) * 128 + 1 * (y 1).val = (y 1).val; omega

/-- Window 8's block is its whole array at every point. -/
theorem whole8 (c : Dev nD) (t : Fin cfg2.N) (y : S1x128.Idx) : iblk2 V c 8 t y = V c main_v50 y := by
  obtain ⟨e0_0, e0_1, e1_0, e1_1, e9_0, e9_1, e2_0, e2_1, e3_0, e3_1, e4_0, e4_1, e5_0, e5_1, e6_0, e6_1, e7_0, e7_1, e8_0, e8_1⟩ := idx_facts t
  show V c main_v50 (((cfg2.win 8).blk t).view.emb y) = _
  refine congrArg _ (funext fun a => Fin.ext ?_)
  match a with
  | ⟨0, _⟩ => show win2_8.index t (0 : Fin 2) * 1 + 1 * (y 0).val = (y 0).val; omega
  | ⟨1, _⟩ => show win2_8.index t (1 : Fin 2) * 128 + 1 * (y 1).val = (y 1).val; omega

/-- Entry (p, q) of point t's output block sits at row t · 5000 + p, column q of the output array. -/
theorem embOut (t : Fin cfg2.N) (p : Fin 5000) (q : Fin 128) :
    ((cfg2.win 9).blk t).view.emb (ix2 p q) = ix2 (row t p) q := by
  obtain ⟨e0_0, e0_1, e1_0, e1_1, e9_0, e9_1, e2_0, e2_1, e3_0, e3_1, e4_0, e4_1, e5_0, e5_1, e6_0, e6_1, e7_0, e7_1, e8_0, e8_1⟩ := idx_facts t
  funext a; apply Fin.ext
  match a with
  | ⟨0, _⟩ => show win2_9.index t (0 : Fin 2) * 5000 + 1 * p.val = t.val * 5000 + p.val; omega
  | ⟨1, _⟩ => show win2_9.index t (1 : Fin 2) * 128 + 1 * q.val = q.val; omega

/-- What point t writes back is block t of the host's layer of the arrays as the region finds them. -/
theorem flushed_eq (c : Dev nD) (t : Fin cfg2.N) (b g be mu var : Net.Arr Ideal Cert.ReferenceIdeal.S128 .f32)
    (h4 : ∀ q : Fin 128, V c main_v46 (ix2 (0 : Fin 1) q) = b (ix1 q))
    (h5 : ∀ q : Fin 128, V c main_v47 (ix2 (0 : Fin 1) q) = g (ix1 q))
    (h6 : ∀ q : Fin 128, V c main_v48 (ix2 (0 : Fin 1) q) = be (ix1 q))
    (h7 : ∀ q : Fin 128, V c main_v49 (ix2 (0 : Fin 1) q) = mu (ix1 q))
    (h8 : ∀ q : Fin 128, V c main_v50 (ix2 (0 : Fin 1) q) = var (ix1 q)) :
    (dat2 V c).flushed 9 t
      = ((cfg2.win 9).blk t).view.read (Elt Ideal) (Net.layer (F := Ideal) (V c main_v45) (V c main_v35) (V c main_arg8) (V c main_arg9) b g be mu var) := by
  show (cfg2.win 9).cut (grid2.coords t) ((dat2 V c).after 9 t) = _
  rw [after2_9]
  unfold out2_9
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  show _ = Net.layer (F := Ideal) (V c main_v45) (V c main_v35) (V c main_arg8) (V c main_arg9) b g be mu var
    (((cfg2.win 9).blk t).view.emb (ix2 p q))
  rw [embOut t p q]
  exact Cert.Point.third _ _ _ _ _ _ _ _ _ _ _ _ _ b g be mu var p (row t p) q
    (fun k => rows0 V c t p k) (fun k => rows1 V c t p k) (fun k => whole2 V c t (ix2 k q)) (fun k => whole3 V c t (ix2 k q))
    ((whole4 V c t (ix2 (0 : Fin 1) q)).trans (h4 q)) ((whole5 V c t (ix2 (0 : Fin 1) q)).trans (h5 q)) ((whole6 V c t (ix2 (0 : Fin 1) q)).trans (h6 q)) ((whole7 V c t (ix2 (0 : Fin 1) q)).trans (h7 q)) ((whole8 V c t (ix2 (0 : Fin 1) q)).trans (h8 q))

/-- An index of the output array is in point t's block iff each coordinate is in the block's range. -/
theorem mem_blk (t : Fin cfg2.N) (i : S100000x128.Idx) :
    i ∈ ((cfg2.win 9).blk t).view.set ↔ ∀ a : Fin 2, win2_9.index t a * S5000x128.size a ≤ (i a).val
      ∧ (i a).val < win2_9.index t a * S5000x128.size a + S5000x128.size a := by
  show i ∈ ((View.whole main_v51).slice (win2_9.rect t)).set ↔ _
  rw [View.set_slice_whole, Rect.mem_set_unit]
  exact Iff.rfl

/-- Every index of the output array is in the block of the point its row falls in. -/
theorem cover (i : S100000x128.Idx) :
    ∃ t : Fin cfg2.N, (cfg2.win 9).flush t = true ∧ i ∈ ((cfg2.win 9).blk t).view.set := by
  have hi0 : (i 0).val < 100000 := (i 0).isLt
  have hi1 : (i 1).val < 128 := (i 1).isLt
  obtain ⟨t, ht⟩ := idx_onto ⟨(i 0).val / 5000, by omega⟩
  obtain ⟨e0_0, e0_1, e1_0, e1_1, e9_0, e9_1, e2_0, e2_1, e3_0, e3_1, e4_0, e4_1, e5_0, e5_1, e6_0, e6_1, e7_0, e7_1, e8_0, e8_1⟩ := idx_facts t
  have ht' : win2_9.index t (0 : Fin 2) = (i 0).val / 5000 := ht
  refine ⟨t, flush2_9 t, ?_⟩
  rw [mem_blk]
  intro a
  match a with
  | ⟨0, _⟩ => show win2_9.index t (0 : Fin 2) * 5000 ≤ (i 0).val ∧ (i 0).val < win2_9.index t (0 : Fin 2) * 5000 + 5000; omega
  | ⟨1, _⟩ => show win2_9.index t (1 : Fin 2) * 128 ≤ (i 1).val ∧ (i 1).val < win2_9.index t (1 : Fin 2) * 128 + 128; omega

/-- The output array when the region ends: the host's layer of the arrays as the region finds them. -/
theorem final (c : Dev nD) (b g be mu var : Net.Arr Ideal Cert.ReferenceIdeal.S128 .f32)
    (h4 : ∀ q : Fin 128, V c main_v46 (ix2 (0 : Fin 1) q) = b (ix1 q))
    (h5 : ∀ q : Fin 128, V c main_v47 (ix2 (0 : Fin 1) q) = g (ix1 q))
    (h6 : ∀ q : Fin 128, V c main_v48 (ix2 (0 : Fin 1) q) = be (ix1 q))
    (h7 : ∀ q : Fin 128, V c main_v49 (ix2 (0 : Fin 1) q) = mu (ix1 q))
    (h8 : ∀ q : Fin 128, V c main_v50 (ix2 (0 : Fin 1) q) = var (ix1 q)) :
    (dat2 V c).arrAt 9 cfg2.N = Net.layer (F := Ideal) (V c main_v45) (V c main_v35) (V c main_arg8) (V c main_arg9) b g be mu var :=
  (dat2 V c).arrAt_eq_of_cover 9 _ (fun t _ => flushed_eq V c t b g be mu var h4 h5 h6 h7 h8) (cover)

end Cert.KernelIdeal.Region2

end
-- ==== Proof.Region3.lean ====
/-
  The last layer's region: what its output array holds when the region ends.

  The region visits 20 grid points; point t stages rows t · 5000 … t · 5000 + 4999 of the neighbour sums and of the
  features, the weight matrices and the per-column rows whole, and writes back the same rows of the output. Entry by
  entry the written block is the host's layer of the arrays as the region finds them, and the 20 blocks tile the
  output's rows, so the output array ends as that layer of the whole arrays.
-/
import proofs.«108992_j77670188581370_1_alg».proof.Proof.Gen.KernelIdeal.Frame
import proofs.«108992_j77670188581370_1_alg».proof.Proof.Point

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row windows and the output move one block of rows per point and
    stay in column block 0; every other window stays at block (0, 0). -/
theorem idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_5.index t (0 : Fin 2) = t.val
    ∧ win3_5.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0 :=
  (by decide +kernel : ∀ t : Fin grid3.N, _)

/-- Every block of rows of the output is some point's. -/
theorem idx_onto : ∀ q0 : Fin 20, ∃ t : Fin cfg3.N, win3_5.index t (0 : Fin 2) = q0.val :=
  (by decide +kernel : ∀ q0 : Fin 20, ∃ t : Fin grid3.N, win3_5.index t (0 : Fin 2) = q0.val)

/-- Row p of point t's blocks, as a row of the whole arrays. -/
def row (t : Fin cfg3.N) (p : Fin 5000) : Fin 100000 :=
  ⟨t.val * 5000 + p.val, by have h := t.isLt; have h2 : cfg3.N = 20 := N_3; have h3 := p.isLt; omega⟩

/-- Row p of window 0's block at point t is row t · 5000 + p of its array. -/
theorem rows0 (c : Dev nD) (t : Fin cfg3.N) (p : Fin 5000) (k : Fin 128) :
    iblk3 V c 0 t (ix2 p k) = V c main_v61 (ix2 (row t p) k) := by
  obtain ⟨e0_0, e0_1, e1_0, e1_1, e5_0, e5_1, e2_0, e2_1, e3_0, e3_1, e4_0, e4_1⟩ := idx_facts t
  show V c main_v61 (((cfg3.win 0).blk t).view.emb (ix2 p k)) = _
  refine congrArg _ (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * k.val = k.val; omega

/-- Row p of window 1's block at point t is row t · 5000 + p of its array. -/
theorem rows1 (c : Dev nD) (t : Fin cfg3.N) (p : Fin 5000) (k : Fin 128) :
    iblk3 V c 1 t (ix2 p k) = V c main_v51 (ix2 (row t p) k) := by
  obtain ⟨e0_0, e0_1, e1_0, e1_1, e5_0, e5_1, e2_0, e2_1, e3_0, e3_1, e4_0, e4_1⟩ := idx_facts t
  show V c main_v51 (((cfg3.win 1).blk t).view.emb (ix2 p k)) = _
  refine congrArg _ (funext fun a => Fin.ext ?_)
  match a with
  | ⟨0, _⟩ => show win3_1.index t (0 : Fin 2) * 5000 + 1 * p.val = t.val * 5000 + p.val; omega
  | ⟨1, _⟩ => show win3_1.index t (1 : Fin 2) * 128 + 1 * k.val = k.val; omega

/-- Window 2's block is its whole array at every point. -/
theorem whole2 (c : Dev nD) (t : Fin cfg3.N) (y : S128x1.Idx) : iblk3 V c 2 t y = V c main_arg11 y := by
  obtain ⟨e0_0, e0_1, e1_0, e1_1, e5_0, e5_1, e2_0, e2_1, e3_0, e3_1, e4_0, e4_1⟩ := idx_facts t
  show V c main_arg11 (((cfg3.win 2).blk t).view.emb y) = _
  refine congrArg _ (funext fun a => Fin.ext ?_)
  match a with
  | ⟨0, _⟩ => show win3_2.index t (0 : Fin 2) * 128 + 1 * (y 0).val = (y 0).val; omega
  | ⟨1, _⟩ => show win3_2.index t (1 : Fin 2) * 1 + 1 * (y 1).val = (y 1).val; omega

/-- Window 3's block is its whole array at every point. -/
theorem whole3 (c : Dev nD) (t : Fin cfg3.N) (y : S128x1.Idx) : iblk3 V c 3 t y = V c main_arg12 y := by
  obtain ⟨e0_0, e0_1, e1_0, e1_1, e5_0, e5_1, e2_0, e2_1, e3_0, e3_1, e4_0, e4_1⟩ := idx_facts t
  show V c main_arg12 (((cfg3.win 3).blk t).view.emb y) = _
  refine congrArg _ (funext fun a => Fin.ext ?_)
  match a with
  | ⟨0, _⟩ => show win3_3.index t (0 : Fin 2) * 128 + 1 * (y 0).val = (y 0).val; omega
  | ⟨1, _⟩ => show win3_3.index t (1 : Fin 2) * 1 + 1 * (y 1).val = (y 1).val; omega

/-- Window 4's block is its whole array at every point. -/
theorem whole4 (c : Dev nD) (t : Fin cfg3.N) (y : S1x1.Idx) : iblk3 V c 4 t y = V c main_v62 y := by
  obtain ⟨e0_0, e0_1, e1_0, e1_1, e5_0, e5_1, e2_0, e2_1, e3_0, e3_1, e4_0, e4_1⟩ := idx_facts t
  show V c main_v62 (((cfg3.win 4).blk t).view.emb y) = _
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 1 + 1 * (y 1).val = (y 1).val; omega

/-- Entry (p, q) of point t's output block sits at row t · 5000 + p, column q of the output array. -/
theorem embOut (t : Fin cfg3.N) (p : Fin 5000) (q : Fin 1) :
    ((cfg3.win 5).blk t).view.emb (ix2 p q) = ix2 (row t p) q := by
  obtain ⟨e0_0, e0_1, e1_0, e1_1, e5_0, e5_1, e2_0, e2_1, e3_0, e3_1, e4_0, e4_1⟩ := idx_facts t
  funext a; apply Fin.ext
  match a with
  | ⟨0, _⟩ => show win3_5.index t (0 : Fin 2) * 5000 + 1 * p.val = t.val * 5000 + p.val; omega
  | ⟨1, _⟩ => show win3_5.index t (1 : Fin 2) * 1 + 1 * q.val = q.val; omega

/-- What point t writes back is block t of the host's layer of the arrays as the region finds them. -/
theorem flushed_eq (c : Dev nD) (t : Fin cfg3.N) (b : Net.Arr Ideal Cert.ReferenceIdeal.S1 .f32)
    (h4 : ∀ q : Fin 1, V c main_v62 (ix2 (0 : Fin 1) q) = b (ix1 q)) :
    (dat3 V c).flushed 5 t
      = ((cfg3.win 5).blk t).view.read (Elt Ideal) (Net.layerOut (F := Ideal) (V c main_v61) (V c main_v51) (V c main_arg11) (V c main_arg12) b) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x1) hz, View.ld_unit_zero (S := S1x1) hz]
  funext y
  obtain ⟨p, q, rfl⟩ : ∃ (p : Fin 5000) (q : Fin 1), y = ix2 p q := ⟨y 0, y 1, eq_ix2 y⟩
  show _ = Net.layerOut (F := Ideal) (V c main_v61) (V c main_v51) (V c main_arg11) (V c main_arg12) b
    (((cfg3.win 5).blk t).view.emb (ix2 p q))
  rw [embOut t p q]
  exact Cert.Point.last _ _ _ _ _ _ _ _ _ b p (row t p) q
    (fun k => rows0 V c t p k) (fun k => rows1 V c t p k) (fun k => whole2 V c t (ix2 k q)) (fun k => whole3 V c t (ix2 k q))
    ((whole4 V c t (ix2 (0 : Fin 1) q)).trans (h4 q))

/-- An index of the output array is in point t's block iff each coordinate is in the block's range. -/
theorem mem_blk (t : Fin cfg3.N) (i : S100000x1.Idx) :
    i ∈ ((cfg3.win 5).blk t).view.set ↔ ∀ a : Fin 2, win3_5.index t a * S5000x1.size a ≤ (i a).val
      ∧ (i a).val < win3_5.index t a * S5000x1.size a + S5000x1.size a := by
  show i ∈ ((View.whole main_v63).slice (win3_5.rect t)).set ↔ _
  rw [View.set_slice_whole, Rect.mem_set_unit]
  exact Iff.rfl

/-- Every index of the output array is in the block of the point its row falls in. -/
theorem cover (i : S100000x1.Idx) :
    ∃ t : Fin cfg3.N, (cfg3.win 5).flush t = true ∧ i ∈ ((cfg3.win 5).blk t).view.set := by
  have hi0 : (i 0).val < 100000 := (i 0).isLt
  have hi1 : (i 1).val < 1 := (i 1).isLt
  obtain ⟨t, ht⟩ := idx_onto ⟨(i 0).val / 5000, by omega⟩
  obtain ⟨e0_0, e0_1, e1_0, e1_1, e5_0, e5_1, e2_0, e2_1, e3_0, e3_1, e4_0, e4_1⟩ := idx_facts t
  have ht' : win3_5.index t (0 : Fin 2) = (i 0).val / 5000 := ht
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 1 ≤ (i 1).val ∧ (i 1).val < win3_5.index t (1 : Fin 2) * 1 + 1; omega

/-- The output array when the region ends: the host's layer of the arrays as the region finds them. -/
theorem final (c : Dev nD) (b : Net.Arr Ideal Cert.ReferenceIdeal.S1 .f32)
    (h4 : ∀ q : Fin 1, V c main_v62 (ix2 (0 : Fin 1) q) = b (ix1 q)) :
    (dat3 V c).arrAt 5 cfg3.N = Net.layerOut (F := Ideal) (V c main_v61) (V c main_v51) (V c main_arg11) (V c main_arg12) b :=
  (dat3 V c).arrAt_eq_of_cover 5 _ (fun t _ => flushed_eq V c t b h4) (cover)

end Cert.KernelIdeal.Region3

end
-- ==== Proof.Chain.lean ====
/-
  The kernel program's result, region by region.

  Before each region a stretch of host operations gathers the previous layer's features along the edges and adds
  them into their destination rows, and reshapes the layer's per-column vectors to one-row arrays; the region then
  computes the layer block by block. Reading each region's arrays off the operations before it, and each region's
  output off the region, the buffers hold, in turn, the first, second and third layers' features and finally the
  network's output, each as the network's own function of the launch contents of the arguments.
-/
import proofs.«108992_j77670188581370_1_alg».proof.Proof.Walk
import proofs.«108992_j77670188581370_1_alg».proof.Proof.NetOut
import proofs.«108992_j77670188581370_1_alg».proof.Proof.Region0
import proofs.«108992_j77670188581370_1_alg».proof.Proof.Region1
import proofs.«108992_j77670188581370_1_alg».proof.Proof.Region2
import proofs.«108992_j77670188581370_1_alg».proof.Proof.Region3

set_option maxRecDepth 16384

noncomputable section

namespace Cert.KernelIdeal.Chain

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-! ## Region 0: the arrays it finds, and what it leaves -/

set_option maxHeartbeats 8000000 in
theorem in0_agg (c : Dev nD) : V1 m ρ c main_v13 = Net.agg1 (F := Ideal) (m ((c : Thread nD τ).loc main_arg1)) (m ((c : Thread nD τ).loc main_arg0)) := by
  dsimp only [V1, W1, hostOps0]
  after_results
  all_goals rfl

theorem in0_prev (c : Dev nD) : V1 m ρ c main_arg0 = (m ((c : Thread nD τ).loc main_arg0)) := by
  dsimp only [V1, W1, hostOps0]
  after_results
  all_goals rfl

theorem in0_wl (c : Dev nD) : V1 m ρ c main_arg2 = (m ((c : Thread nD τ).loc main_arg2)) := by
  dsimp only [V1, W1, hostOps0]
  after_results
  all_goals rfl

theorem in0_wr (c : Dev nD) : V1 m ρ c main_arg3 = (m ((c : Thread nD τ).loc main_arg3)) := by
  dsimp only [V1, W1, hostOps0]
  after_results
  all_goals rfl

theorem in0_r4 (c : Dev nD) (q : Fin 128) : V1 m ρ c main_v14 (ix2 (0 : Fin 1) q) = (m ((c : Thread nD τ).loc main_arg4)) (ix1 q) := by
  have e : V1 m ρ c main_v14 = shapeCast S1x128 (m ((c : Thread nD τ).loc main_arg4)) shapeCasts_S128_S1x128 := by
    dsimp only [V1, W1, hostOps0]
    after_results
    all_goals rfl
  exact (congrFun e _).trans (shapeCast_a_1a_apply _ _ 0 q)

theorem in0_r5 (c : Dev nD) (q : Fin 128) : V1 m ρ c main_v15 (ix2 (0 : Fin 1) q) = (m ((c : Thread nD τ).loc main_arg14)) (ix1 q) := by
  have e : V1 m ρ c main_v15 = shapeCast S1x128 (m ((c : Thread nD τ).loc main_arg14)) shapeCasts_S128_S1x128 := by
    dsimp only [V1, W1, hostOps0]
    after_results
    all_goals rfl
  exact (congrFun e _).trans (shapeCast_a_1a_apply _ _ 0 q)

theorem in0_r6 (c : Dev nD) (q : Fin 128) : V1 m ρ c main_v16 (ix2 (0 : Fin 1) q) = (m ((c : Thread nD τ).loc main_arg15)) (ix1 q) := by
  have e : V1 m ρ c main_v16 = shapeCast S1x128 (m ((c : Thread nD τ).loc main_arg15)) shapeCasts_S128_S1x128 := by
    dsimp only [V1, W1, hostOps0]
    after_results
    all_goals rfl
  exact (congrFun e _).trans (shapeCast_a_1a_apply _ _ 0 q)

theorem in0_r7 (c : Dev nD) (q : Fin 128) : V1 m ρ c main_v17 (ix2 (0 : Fin 1) q) = (m ((c : Thread nD τ).loc main_arg16)) (ix1 q) := by
  have e : V1 m ρ c main_v17 = shapeCast S1x128 (m ((c : Thread nD τ).loc main_arg16)) shapeCasts_S128_S1x128 := by
    dsimp only [V1, W1, hostOps0]
    after_results
    all_goals rfl
  exact (congrFun e _).trans (shapeCast_a_1a_apply _ _ 0 q)

theorem in0_r8 (c : Dev nD) (q : Fin 128) : V1 m ρ c main_v18 (ix2 (0 : Fin 1) q) = (m ((c : Thread nD τ).loc main_arg17)) (ix1 q) := by
  have e : V1 m ρ c main_v18 = shapeCast S1x128 (m ((c : Thread nD τ).loc main_arg17)) shapeCasts_S128_S1x128 := by
    dsimp only [V1, W1, hostOps0]
    after_results
    all_goals rfl
  exact (congrFun e _).trans (shapeCast_a_1a_apply _ _ 0 q)

/-- What region 0 leaves in its output array. -/
theorem hid1_eq (c : Dev nD) : W2 m ρ c (Proc.devRef .tc main_v19) = (Net.hid1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg14)) (m ((c : Thread nD τ).loc main_arg15)) (m ((c : Thread nD τ).loc main_arg16)) (m ((c : Thread nD τ).loc main_arg17))) := by
  refine (W2_arr m ρ c 9).trans ?_
  refine (Region0.final (V1 m ρ) c (m ((c : Thread nD τ).loc main_arg4)) (m ((c : Thread nD τ).loc main_arg14)) (m ((c : Thread nD τ).loc main_arg15)) (m ((c : Thread nD τ).loc main_arg16)) (m ((c : Thread nD τ).loc main_arg17)) (in0_r4 m ρ c) (in0_r5 m ρ c) (in0_r6 m ρ c) (in0_r7 m ρ c) (in0_r8 m ρ c)).trans ?_
  rw [in0_agg m ρ c, in0_prev m ρ c, in0_wl m ρ c, in0_wr m ρ c]
  all_goals rfl

/-! ## Region 1: the arrays it finds, and what it leaves -/

set_option maxHeartbeats 8000000 in
theorem in1_agg (c : Dev nD) : V3 m ρ c main_v29 = Net.agg (F := Ideal) (m ((c : Thread nD τ).loc main_arg1)) (Net.hid1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg14)) (m ((c : Thread nD τ).loc main_arg15)) (m ((c : Thread nD τ).loc main_arg16)) (m ((c : Thread nD τ).loc main_arg17))) := by
  dsimp only [V3, W3, hostOps1]
  after_results
  rw [Walk.at2_main_v1 m ρ c, Walk.at2_main_v3 m ρ c, hid1_eq m ρ c]
  all_goals rfl

theorem in1_prev (c : Dev nD) : V3 m ρ c main_v19 = (Net.hid1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg14)) (m ((c : Thread nD τ).loc main_arg15)) (m ((c : Thread nD τ).loc main_arg16)) (m ((c : Thread nD τ).loc main_arg17))) := by
  dsimp only [V3, W3, hostOps1]
  after_results
  exact hid1_eq m ρ c

theorem in1_wl (c : Dev nD) : V3 m ρ c main_arg5 = (m ((c : Thread nD τ).loc main_arg5)) := by
  dsimp only [V3, W3, hostOps1]
  after_results
  exact Walk.at2_main_arg5 m ρ c

theorem in1_wr (c : Dev nD) : V3 m ρ c main_arg6 = (m ((c : Thread nD τ).loc main_arg6)) := by
  dsimp only [V3, W3, hostOps1]
  after_results
  exact Walk.at2_main_arg6 m ρ c

theorem in1_r4 (c : Dev nD) (q : Fin 128) : V3 m ρ c main_v30 (ix2 (0 : Fin 1) q) = (m ((c : Thread nD τ).loc main_arg7)) (ix1 q) := by
  have e : V3 m ρ c main_v30 = shapeCast S1x128 (m ((c : Thread nD τ).loc main_arg7)) shapeCasts_S128_S1x128 := by
    dsimp only [V3, W3, hostOps1]
    after_results
    rw [Walk.at2_main_arg7 m ρ c]
    all_goals rfl
  exact (congrFun e _).trans (shapeCast_a_1a_apply _ _ 0 q)

theorem in1_r5 (c : Dev nD) (q : Fin 128) : V3 m ρ c main_v31 (ix2 (0 : Fin 1) q) = (m ((c : Thread nD τ).loc main_arg18)) (ix1 q) := by
  have e : V3 m ρ c main_v31 = shapeCast S1x128 (m ((c : Thread nD τ).loc main_arg18)) shapeCasts_S128_S1x128 := by
    dsimp only [V3, W3, hostOps1]
    after_results
    rw [Walk.at2_main_arg18 m ρ c]
    all_goals rfl
  exact (congrFun e _).trans (shapeCast_a_1a_apply _ _ 0 q)

theorem in1_r6 (c : Dev nD) (q : Fin 128) : V3 m ρ c main_v32 (ix2 (0 : Fin 1) q) = (m ((c : Thread nD τ).loc main_arg19)) (ix1 q) := by
  have e : V3 m ρ c main_v32 = shapeCast S1x128 (m ((c : Thread nD τ).loc main_arg19)) shapeCasts_S128_S1x128 := by
    dsimp only [V3, W3, hostOps1]
    after_results
    rw [Walk.at2_main_arg19 m ρ c]
    all_goals rfl
  exact (congrFun e _).trans (shapeCast_a_1a_apply _ _ 0 q)

theorem in1_r7 (c : Dev nD) (q : Fin 128) : V3 m ρ c main_v33 (ix2 (0 : Fin 1) q) = (m ((c : Thread nD τ).loc main_arg20)) (ix1 q) := by
  have e : V3 m ρ c main_v33 = shapeCast S1x128 (m ((c : Thread nD τ).loc main_arg20)) shapeCasts_S128_S1x128 := by
    dsimp only [V3, W3, hostOps1]
    after_results
    rw [Walk.at2_main_arg20 m ρ c]
    all_goals rfl
  exact (congrFun e _).trans (shapeCast_a_1a_apply _ _ 0 q)

theorem in1_r8 (c : Dev nD) (q : Fin 128) : V3 m ρ c main_v34 (ix2 (0 : Fin 1) q) = (m ((c : Thread nD τ).loc main_arg21)) (ix1 q) := by
  have e : V3 m ρ c main_v34 = shapeCast S1x128 (m ((c : Thread nD τ).loc main_arg21)) shapeCasts_S128_S1x128 := by
    dsimp only [V3, W3, hostOps1]
    after_results
    rw [Walk.at2_main_arg21 m ρ c]
    all_goals rfl
  exact (congrFun e _).trans (shapeCast_a_1a_apply _ _ 0 q)

/-- What region 1 leaves in its output array. -/
theorem hid2_eq (c : Dev nD) : W4 m ρ c (Proc.devRef .tc main_v35) = (Net.hid2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) := by
  refine (W4_arr m ρ c 9).trans ?_
  refine (Region1.final (V3 m ρ) c (m ((c : Thread nD τ).loc main_arg7)) (m ((c : Thread nD τ).loc main_arg18)) (m ((c : Thread nD τ).loc main_arg19)) (m ((c : Thread nD τ).loc main_arg20)) (m ((c : Thread nD τ).loc main_arg21)) (in1_r4 m ρ c) (in1_r5 m ρ c) (in1_r6 m ρ c) (in1_r7 m ρ c) (in1_r8 m ρ c)).trans ?_
  rw [in1_agg m ρ c, in1_prev m ρ c, in1_wl m ρ c, in1_wr m ρ c]
  all_goals rfl

/-! ## Region 2: the arrays it finds, and what it leaves -/

set_option maxHeartbeats 8000000 in
theorem in2_agg (c : Dev nD) : V5 m ρ c main_v45 = Net.agg (F := Ideal) (m ((c : Thread nD τ).loc main_arg1)) (Net.hid2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) := by
  dsimp only [V5, W5, hostOps2]
  after_results
  rw [Walk.at4_main_v1 m ρ c, Walk.at4_main_v3 m ρ c, hid2_eq m ρ c]
  all_goals rfl

theorem in2_prev (c : Dev nD) : V5 m ρ c main_v35 = (Net.hid2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) := by
  dsimp only [V5, W5, hostOps2]
  after_results
  exact hid2_eq m ρ c

theorem in2_wl (c : Dev nD) : V5 m ρ c main_arg8 = (m ((c : Thread nD τ).loc main_arg8)) := by
  dsimp only [V5, W5, hostOps2]
  after_results
  exact Walk.at4_main_arg8 m ρ c

theorem in2_wr (c : Dev nD) : V5 m ρ c main_arg9 = (m ((c : Thread nD τ).loc main_arg9)) := by
  dsimp only [V5, W5, hostOps2]
  after_results
  exact Walk.at4_main_arg9 m ρ c

theorem in2_r4 (c : Dev nD) (q : Fin 128) : V5 m ρ c main_v46 (ix2 (0 : Fin 1) q) = (m ((c : Thread nD τ).loc main_arg10)) (ix1 q) := by
  have e : V5 m ρ c main_v46 = shapeCast S1x128 (m ((c : Thread nD τ).loc main_arg10)) shapeCasts_S128_S1x128 := by
    dsimp only [V5, W5, hostOps2]
    after_results
    rw [Walk.at4_main_arg10 m ρ c]
    all_goals rfl
  exact (congrFun e _).trans (shapeCast_a_1a_apply _ _ 0 q)

theorem in2_r5 (c : Dev nD) (q : Fin 128) : V5 m ρ c main_v47 (ix2 (0 : Fin 1) q) = (m ((c : Thread nD τ).loc main_arg22)) (ix1 q) := by
  have e : V5 m ρ c main_v47 = shapeCast S1x128 (m ((c : Thread nD τ).loc main_arg22)) shapeCasts_S128_S1x128 := by
    dsimp only [V5, W5, hostOps2]
    after_results
    rw [Walk.at4_main_arg22 m ρ c]
    all_goals rfl
  exact (congrFun e _).trans (shapeCast_a_1a_apply _ _ 0 q)

theorem in2_r6 (c : Dev nD) (q : Fin 128) : V5 m ρ c main_v48 (ix2 (0 : Fin 1) q) = (m ((c : Thread nD τ).loc main_arg23)) (ix1 q) := by
  have e : V5 m ρ c main_v48 = shapeCast S1x128 (m ((c : Thread nD τ).loc main_arg23)) shapeCasts_S128_S1x128 := by
    dsimp only [V5, W5, hostOps2]
    after_results
    rw [Walk.at4_main_arg23 m ρ c]
    all_goals rfl
  exact (congrFun e _).trans (shapeCast_a_1a_apply _ _ 0 q)

theorem in2_r7 (c : Dev nD) (q : Fin 128) : V5 m ρ c main_v49 (ix2 (0 : Fin 1) q) = (m ((c : Thread nD τ).loc main_arg24)) (ix1 q) := by
  have e : V5 m ρ c main_v49 = shapeCast S1x128 (m ((c : Thread nD τ).loc main_arg24)) shapeCasts_S128_S1x128 := by
    dsimp only [V5, W5, hostOps2]
    after_results
    rw [Walk.at4_main_arg24 m ρ c]
    all_goals rfl
  exact (congrFun e _).trans (shapeCast_a_1a_apply _ _ 0 q)

theorem in2_r8 (c : Dev nD) (q : Fin 128) : V5 m ρ c main_v50 (ix2 (0 : Fin 1) q) = (m ((c : Thread nD τ).loc main_arg25)) (ix1 q) := by
  have e : V5 m ρ c main_v50 = shapeCast S1x128 (m ((c : Thread nD τ).loc main_arg25)) shapeCasts_S128_S1x128 := by
    dsimp only [V5, W5, hostOps2]
    after_results
    rw [Walk.at4_main_arg25 m ρ c]
    all_goals rfl
  exact (congrFun e _).trans (shapeCast_a_1a_apply _ _ 0 q)

/-- What region 2 leaves in its output array. -/
theorem hid3_eq (c : Dev nD) : W6 m ρ c (Proc.devRef .tc main_v51) = (Net.hid3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) := by
  refine (W6_arr m ρ c 9).trans ?_
  refine (Region2.final (V5 m ρ) c (m ((c : Thread nD τ).loc main_arg10)) (m ((c : Thread nD τ).loc main_arg22)) (m ((c : Thread nD τ).loc main_arg23)) (m ((c : Thread nD τ).loc main_arg24)) (m ((c : Thread nD τ).loc main_arg25)) (in2_r4 m ρ c) (in2_r5 m ρ c) (in2_r6 m ρ c) (in2_r7 m ρ c) (in2_r8 m ρ c)).trans ?_
  rw [in2_agg m ρ c, in2_prev m ρ c, in2_wl m ρ c, in2_wr m ρ c]
  all_goals rfl

/-! ## Region 3: the arrays it finds, and what it leaves -/

set_option maxHeartbeats 8000000 in
theorem in3_agg (c : Dev nD) : V7 m ρ c main_v61 = Net.agg (F := Ideal) (m ((c : Thread nD τ).loc main_arg1)) (Net.hid3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) := by
  dsimp only [V7, W7, hostOps3]
  after_results
  rw [Walk.at6_main_v1 m ρ c, Walk.at6_main_v3 m ρ c, hid3_eq m ρ c]
  all_goals rfl

theorem in3_prev (c : Dev nD) : V7 m ρ c main_v51 = (Net.hid3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) := by
  dsimp only [V7, W7, hostOps3]
  after_results
  exact hid3_eq m ρ c

theorem in3_wl (c : Dev nD) : V7 m ρ c main_arg11 = (m ((c : Thread nD τ).loc main_arg11)) := by
  dsimp only [V7, W7, hostOps3]
  after_results
  exact Walk.at6_main_arg11 m ρ c

theorem in3_wr (c : Dev nD) : V7 m ρ c main_arg12 = (m ((c : Thread nD τ).loc main_arg12)) := by
  dsimp only [V7, W7, hostOps3]
  after_results
  exact Walk.at6_main_arg12 m ρ c

theorem in3_r4 (c : Dev nD) (q : Fin 1) : V7 m ρ c main_v62 (ix2 (0 : Fin 1) q) = (m ((c : Thread nD τ).loc main_arg13)) (ix1 q) := by
  have e : V7 m ρ c main_v62 = shapeCast S1x1 (m ((c : Thread nD τ).loc main_arg13)) shapeCasts_S1_S1x1 := by
    dsimp only [V7, W7, hostOps3]
    after_results
    rw [Walk.at6_main_arg13 m ρ c]
    all_goals rfl
  exact (congrFun e _).trans (shapeCast_a_1a_apply _ _ 0 q)

/-- What region 3 leaves in its output array. -/
theorem hid4_eq (c : Dev nD) : W8 m ρ c (Proc.devRef .tc main_v63) = (Net.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) := by
  refine (W8_arr m ρ c 5).trans ?_
  refine (Region3.final (V7 m ρ) c (m ((c : Thread nD τ).loc main_arg13)) (in3_r4 m ρ c)).trans ?_
  rw [in3_agg m ρ c, in3_prev m ρ c, in3_wl m ρ c, in3_wr m ρ c]
  all_goals rfl

end Cert.KernelIdeal.Chain

end
-- ==== Proof.RefNet.lean ====
/-
  The reference program's result is the network of its argument arrays: its operations, composed in order, are
  the network's definition spelt out.
-/
import proofs.«108992_j77670188581370_1_alg».proof.Proof.Gen.ReferenceIdeal.Run
import proofs.«108992_j77670188581370_1_alg».proof.Proof.NetOut
import Idealize.ShloMosaic.PureOps.Ideal

set_option maxRecDepth 16384

noncomputable section

namespace Cert.RefNet

open Cert.ReferenceIdeal Cert.ReferenceIdeal.Gen Idealize.ShloMosaic Idealize.ShloMosaic.TcCoe Idealize.SL.Sem

set_option maxHeartbeats 4000000 in
/-- The reference run's result term is the network of the launch contents of the arguments. -/
theorem result_eq (m : (ℓ : Loc nD τ sig) → Buf (Elt Ideal) ℓ) (c : Dev nD) :
    Cert.ReferenceIdeal.Value.res_main_v115 (F := Ideal) m c
      = Net.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  unfold Cert.ReferenceIdeal.Value.res_main_v115 Net.out Net.hid3 Net.hid2 Net.hid1 Net.final Net.step Net.layerOut Net.layer
    Net.layer1 Net.normed Net.agg Net.agg1 Net.dstCol Net.srcCol Net.srcRow
  rfl

end Cert.RefNet

end
-- ==== Proof.lean ====
/-
  A four-layer message-passing network on a graph of 100000 nodes and 1600000 edges, computed two ways.

  Both programs gather, for every edge, the source node's feature row and add it into the destination node's row
  (the same host operations in both), and then apply a layer
      clamp₀ ( ( agg h · Wl + h · Wr + b − μ ) · rsqrt (σ + ε) · γ + β )
  three times (feature widths 1 → 128 → 128 → 128), followed by a linear layer of width 1.

  The kernel program computes each layer in its own region of 20 grid points, each point producing 5000 rows of the
  layer: it narrows the matrix operands to bf16 on the way into the matrix unit, accumulates into a zero array, and
  holds the per-column vectors as one-row blocks. The reference computes each layer over the whole matrices with
  host products and vectors broadcast in dimensions. On the extended reals a change of float format is the identity
  and a zero accumulator adds nothing, so entry by entry the two spellings of a layer are the same expression of
  the same entries: the proof never reorders a sum nor uses a law of arithmetic, and the finiteness of the inputs
  is never needed. The neighbour sums are literally the same host operations on both sides and are never opened.

  Module by module: Net / NetOut state the network once over arbitrary arrays; LibDenseLayer reads one layer entry
  by entry in both spellings; HostLayer and Block instantiate that for the host's three products and the kernel
  bodies' three; Point joins them at one entry; Region0 … Region3 show that each region's output array ends as the
  host's layer of the arrays the region finds; Walk carries the edge rows and later layers' parameters across the
  earlier segments; Chain composes the four regions; RunNamed is the program's run with the result buffer named;
  RefNet reads the reference's composed operations as the network.
-/
import proofs.«108992_j77670188581370_1_alg».proof.Defs
import proofs.«108992_j77670188581370_1_alg».proof.Proof.Gen.Kernel
import proofs.«108992_j77670188581370_1_alg».proof.Proof.Gen.Kernel.Skeleton
import proofs.«108992_j77670188581370_1_alg».proof.Proof.Gen.Kernel.Launch
import proofs.«108992_j77670188581370_1_alg».proof.Proof.Gen.Kernel.Points
import proofs.«108992_j77670188581370_1_alg».proof.Proof.Gen.Kernel.Frame
import proofs.«108992_j77670188581370_1_alg».proof.Proof.Gen.KernelIdeal
import proofs.«108992_j77670188581370_1_alg».proof.Proof.Gen.KernelIdeal.Skeleton
import proofs.«108992_j77670188581370_1_alg».proof.Proof.Gen.KernelIdeal.Launch
import proofs.«108992_j77670188581370_1_alg».proof.Proof.Gen.KernelIdeal.Points
import proofs.«108992_j77670188581370_1_alg».proof.Proof.Gen.KernelIdeal.Frame
import proofs.«108992_j77670188581370_1_alg».proof.Proof.Gen.ReferenceIdeal
import proofs.«108992_j77670188581370_1_alg».proof.Proof.Gen.ReferenceIdeal.Run
import proofs.«108992_j77670188581370_1_alg».proof.Proof.Gen.Pre_finite_inputs
import proofs.«108992_j77670188581370_1_alg».proof.Proof.RunNamed
import proofs.«108992_j77670188581370_1_alg».proof.Proof.Chain
import proofs.«108992_j77670188581370_1_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read on the extended reals. -/
theorem preserves : Cert.preserves_Kernel_KernelIdeal := trivial

set_option maxHeartbeats 8000000 in
/-- Both programs end with the network of the argument arrays in their result buffer. -/
theorem algebraic : Cert.algebraic_KernelIdeal_ReferenceIdeal := by
  intro m ρ m' ρ' _ hagree
  refine ⟨fun c => Net.out (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25)), ?_, ?_⟩
  · exact (θ_run Cert.KernelIdeal.defs _ _).mono
      (fun r h c => ⟨(h c).1.trans (Cert.KernelIdeal.Chain.hid4_eq m ρ c), (h c).2⟩)
      (Cert.KernelIdeal.Named.run_named m ρ)
  · refine (θ_run Cert.ReferenceIdeal.defs _ _).mono
      (fun r h c => ⟨(h c).1.trans ((Cert.RefNet.result_eq m' c).trans ?_), (h c).2⟩)
      (Cert.ReferenceIdeal.Value.run (F := Ideal) m' ρ')
    obtain ⟨e0, e1, e2, e3, e4, e5, e6, e7, e8, e9, e10, e11, e12, e13, e14, e15, e16, e17, e18, e19, e20, e21, e22, e23, e24, e25⟩ := hagree c
    rw [e0, e1, e2, e3, e4, e5, e6, e7, e8, e9, e10, e11, e12, e13, e14, e15, e16, e17, e18, e19, e20, e21, e22, e23, e24, e25]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
